-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x16x2048x64 : Shape := ⟨4, ![2, 16, 2048, 64]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S2x16x2048x64 .f32) (main_arg2 : FVec F S2x16x2048x64 .f32) (main_arg3 : FVec F S1024x1024 .f32) (main_arg4 : FVec F S1024x1024 .f32) (main_arg5 : FVec F S1024x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S2x16x2048x64 : Shape := ⟨4, ![2, 16, 2048, 64]⟩
abbrev S1024x1024 : Shape := ⟨2, ![1024, 1024]⟩
abbrev S4096x1024 : Shape := ⟨2, ![4096, 1024]⟩
abbrev S512x1024 : Shape := ⟨2, ![512, 1024]⟩
abbrev S2x2048x16x64 : Shape := ⟨4, ![2, 2048, 16, 64]⟩
abbrev S2x16x4096x64 : Shape := ⟨4, ![2, 16, 4096, 64]⟩
abbrev S32x2048x64 : Shape := ⟨3, ![32, 2048, 64]⟩
abbrev S1x128x64 : Shape := ⟨3, ![1, 128, 64]⟩
abbrev S1x2048x64 : Shape := ⟨3, ![1, 2048, 64]⟩
abbrev S128x64 : Shape := ⟨2, ![128, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩

abbrev nBuf : Space → Nat
  | .hbm => 36
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x16x2048x64, .f32⟩
  | .hbm, ⟨2, _⟩ => ⟨S2x16x2048x64, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x2048x1024, .bf16⟩
  | .hbm, ⟨8, _⟩ => ⟨S4096x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S2x2048x16x64, .bf16⟩
  | .hbm, ⟨16, _⟩ => ⟨S2x16x2048x64, .bf16⟩
  | .hbm, ⟨17, _⟩ => ⟨S2x2048x16x64, .f32⟩
  | .hbm, ⟨18, _⟩ => ⟨S2x16x2048x64, .f32⟩
  | .hbm, ⟨19, _⟩ => ⟨S2x2048x16x64, .f32⟩
  | .hbm, ⟨20, _⟩ => ⟨S2x16x2048x64, .f32⟩
  | .hbm, ⟨21, _⟩ => ⟨S2x16x4096x64, .f32⟩
  | .hbm, ⟨22, _⟩ => ⟨S2x16x4096x64, .f32⟩
  | .hbm, ⟨23, _⟩ => ⟨S32x2048x64, .bf16⟩
  | .hbm, ⟨24, _⟩ => ⟨S32x2048x64, .f32⟩
  | .hbm, ⟨25, _⟩ => ⟨S32x2048x64, .f32⟩
  | .hbm, ⟨26, _⟩ => ⟨S32x2048x64, .f32⟩
  | .hbm, ⟨27, _⟩ => ⟨S32x2048x64, .f32⟩
  | .hbm, ⟨28, _⟩ => ⟨S32x2048x64, .bf16⟩
  | .hbm, ⟨29, _⟩ => ⟨S2x16x2048x64, .bf16⟩
  | .hbm, ⟨30, _⟩ => ⟨S2x2048x16x64, .bf16⟩
  | .hbm, ⟨31, _⟩ => ⟨S2x2048x1024, .bf16⟩
  | .hbm, ⟨32, _⟩ => ⟨S4096x1024, .bf16⟩
  | .hbm, ⟨33, _⟩ => ⟨S1024x1024, .bf16⟩
  | .hbm, ⟨34, _⟩ => ⟨S4096x1024, .f32⟩
  | .hbm, ⟨35, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x128x64, .bf16⟩
  | .local _ .vmem, ⟨12, _⟩ => ⟨S1x128x64, .bf16⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x128x64, .bf16⟩
  | .local _ .vmem, ⟨22, _⟩ => ⟨S1x128x64, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  concatenates_S2x16x2048x64_S2x16x2048x64_S2x16x4096x64_d2 : Shape.Concatenates [S2x16x2048x64, S2x16x2048x64] S2x16x4096x64 2
  shapeCasts_S2x16x2048x64_S32x2048x64 : S2x16x2048x64.ShapeCasts S32x2048x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S128x2048_S128 : S128x2048.Reduces [1] S128
  shapeCasts_S128_S128x1 : S128.ShapeCasts S128x1
  broadcasts_S128x1_S128x2048 : S128x1.Broadcasts S128x2048
  broadcasts_S128x1_S128x64 : S128x1.Broadcasts S128x64
  shapeCasts_S128x64_S1x128x64 : S128x64.ShapeCasts S1x128x64
  packedbf16_S1x128x64_S1x128x64_0_0_0 : (Rect.unit (s := S1x128x64) ![0, 0, 0] S1x128x64.size inb_S1x128x64_S1x128x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S128x64_S2048x64_S128x2048_1_1_0_0_n_n_wf : DotDims.WF S128x64 S2048x64 S128x2048 [1] [1] [0] [0] [] []
  dot_S128x2048_S2048x64_S128x64_1_0_0_1_n_n_wf : DotDims.WF S128x2048 S2048x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S32x2048x64.size a
  hwx1_0 : ∀ i : grid1.Coords, EltTy.bits .bf16 = 32 ∨ (Rect.block (s := S32x2048x64) S1x128x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x64.size a ≤ S32x2048x64.size a
  hwx1_3 : ∀ i : grid1.Coords, EltTy.bits .f32 = 32 ∨ (Rect.block (s := S32x2048x64) S1x2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x64.size a ≤ S32x2048x64.size a
  hwx1_4 : ∀ i : grid1.Coords, EltTy.bits .f32 = 32 ∨ (Rect.block (s := S32x2048x64) S1x2048x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64.size a ≤ S32x2048x64.size a
  hwx1_5 : ∀ i : grid1.Coords, EltTy.bits .bf16 = 32 ∨ (Rect.block (s := S32x2048x64) S1x128x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x2048x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2x16x2048x64 : Shape := ⟨4, ![2, 16, 2048, 64]⟩
abbrev S1024x1024 : Shape := ⟨2, ![1024, 1024]⟩
abbrev S2x2048x16x64 : Shape := ⟨4, ![2, 2048, 16, 64]⟩
abbrev S2x16x4096x64 : Shape := ⟨4, ![2, 16, 4096, 64]⟩
abbrev S2x16x2048x4096 : Shape := ⟨4, ![2, 16, 2048, 4096]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x16x2048x64, .f32⟩
  | .hbm, ⟨2, _⟩ => ⟨S2x16x2048x64, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S2x16x4096x64, .f32⟩
  | .hbm, ⟨17, _⟩ => ⟨S2x16x4096x64, .f32⟩
  | .hbm, ⟨18, _⟩ => ⟨S2x16x2048x4096, .f32⟩
  | .hbm, ⟨19, _⟩ => ⟨S_, .f32⟩
  | .hbm, ⟨20, _⟩ => ⟨S_, .f32⟩
  | .hbm, ⟨21, _⟩ => ⟨S2x16x2048x4096, .f32⟩
  | .hbm, ⟨22, _⟩ => ⟨S2x16x2048x4096, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x4096, .f32⟩
  | .hbm, ⟨30, _⟩ => ⟨S2x16x2048x4096, .f32⟩
  | .hbm, ⟨31, _⟩ => ⟨S2x16x2048x4096, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x4096, .f32⟩
  | .hbm, ⟨36, _⟩ => ⟨S2x16x2048x4096, .f32⟩
  | .hbm, ⟨37, _⟩ => ⟨S2x16x2048x64, .f32⟩
  | .hbm, ⟨38, _⟩ => ⟨S2x2048x16x64, .f32⟩
  | .hbm, ⟨39, _⟩ => ⟨S2x2048x1024, .f32⟩
  | .hbm, ⟨40, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  concatenates_S2x16x2048x64_S2x16x2048x64_S2x16x4096x64_d2 : Shape.Concatenates [S2x16x2048x64, S2x16x2048x64] S2x16x4096x64 2
  bcast_S_S2x16x2048x4096 : S_.BroadcastsInDim S2x16x2048x4096 (![] : Fin 0 → Fin S2x16x2048x4096.rank)
  reducesTo_S2x16x2048x4096_S2x16x2048_d3 : S2x16x2048x4096.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x4096_0_1_2_3 : S2x16x2048x1.BroadcastsInDim S2x16x2048x4096 (![0, 1, 2, 3] : Fin 4 → Fin S2x16x2048x4096.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x4096x64_S2x16x2048x4096_3_3_2_2_01_01_wf : DotDims.WF S2x16x2048x64 S2x16x4096x64 S2x16x2048x4096 [3] [3] [2] [2] [0, 1] [0, 1]
  dot_S2x16x2048x4096_S2x16x4096x64_S2x16x2048x64_3_2_2_3_01_01_wf : DotDims.WF S2x16x2048x4096 S2x16x4096x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x4096x64_S2x16x2048x4096_3_3_2_2_01_01 : DotDims S2x16x2048x64 S2x16x4096x64 S2x16x2048x4096 where
  lhsContracting := [3]
  rhsContracting := [3]
  lhsNonContracting := [2]
  rhsNonContracting := [2]
  lhsBatch := [0, 1]
  rhsBatch := [0, 1]
  wf := dot_S2x16x2048x64_S2x16x4096x64_S2x16x2048x4096_3_3_2_2_01_01_wf
def dot_S2x16x2048x4096_S2x16x4096x64_S2x16x2048x64_3_2_2_3_01_01 : DotDims S2x16x2048x4096 S2x16x4096x64 S2x16x2048x64 where
  lhsContracting := [3]
  rhsContracting := [2]
  lhsNonContracting := [2]
  rhsNonContracting := [3]
  lhsBatch := [0, 1]
  rhsBatch := [0, 1]
  wf := dot_S2x16x2048x4096_S2x16x4096x64_S2x16x2048x64_3_2_2_3_01_01_wf

class Facts : Prop extends Facts₀ where

variable [Facts]
-- ==== Proof.KernelRun.lean ====
/-
  The idealized kernel program's run with its three results named.

  The program is seven segments: four stretches of host operations around three grid regions. Every execution from a
  memory with zero counters ends with each unscoped buffer at the contents the segments' fold gives it: a host stretch
  applies its operations to the contents it starts from, a region leaves each of its arrays at what the write-backs of
  its grid points leave and every other buffer alone. Read at the three result buffers and at the seven arguments
  this is the run the value claim needs; the arguments are where they were at launch.
-/
import proofs.«124896_j33852932227543_2_alg».proof.Proof.Gen.KernelIdeal.Frame

set_option maxRecDepth 16384

noncomputable section

namespace Cert.KernelIdeal.RunW

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault with the three result buffers at the
    last boundary's contents and the seven argument arrays as launched. -/
theorem run_results : θ_run defs (onTc (τ := τ) (main (F := F))) ⟨m, fun _ => 0, ρ⟩ (fun r => ∀ c : Dev nD,
      r.2.mem ((c.tc : Thread nD τ).loc main_v26) = W7 m ρ c (Proc.devRef .tc main_v26)
      ∧ r.2.mem ((c.tc : Thread nD τ).loc main_v12) = W7 m ρ c (Proc.devRef .tc main_v12)
      ∧ r.2.mem ((c.tc : Thread nD τ).loc main_v13) = W7 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v26 (by decide)),
       h c _ (mem_uc main_v12 (by decide)),
       h c _ (mem_uc main_v13 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunW

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«124896_j33852932227543_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.Region0.lean ====
/-
  The first grid region's three output arrays, read as values on the extended reals.

  The region walks eight blocks of 512 rows of a 4096×1024 left operand; at each it multiplies the block by three
  resident 1024×1024 right operands and writes the three products to the same 512 rows of three output arrays. A
  product's rows depend only on the left operand's same rows, so each output array ends as the whole product of the
  left operand with its right operand, whatever the contents the region was entered with.
-/
import proofs.«124896_j33852932227543_2_alg».proof.Proof.Gen.KernelIdeal.Frame
import proofs.«124896_j33852932227543_2_alg».proof.Proof.LibMatProd
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd

variable (V : (c : Dev nD) → (b : Ref sig .tc) → Buf (Elt Ideal) ((c : Thread nD τ).loc b))

theorem hz : (![0, 0] : Fin 2 → Nat) = fun _ => 0 := funext fun a => by fin_cases a <;> rfl

/-- A block of 512 rows of the left operand times the whole right operand is the same 512 rows of the whole
    product: row p of block n is row 512 n + p of the array. -/
theorem block_prod (A : S4096x1024.Idx → EReal) (B : S1024x1024.Idx → EReal) (A' : S512x1024.Idx → EReal)
    (B' : S1024x1024.Idx → EReal) (n : Nat) (y : S512x1024.Idx) (i : S4096x1024.Idx)
    (hi0 : (i 0).val = n * 512 + (y 0).val) (hi1 : (i 1).val = (y 1).val)
    (hA : ∀ (p : Fin 512) (k : Fin 1024) (r : Fin 4096), r.val = n * 512 + p.val → A' (ix2 p k) = A (ix2 r k))
    (hB : B' = B) : matProd A' B' y = matProd A B i := by
  subst hB
  obtain ⟨p, q, rfl⟩ : ∃ (p : Fin 512) (q : Fin 1024), y = ix2 p q := ⟨y 0, y 1, eq_ix2 y⟩
  obtain ⟨r, q', rfl⟩ : ∃ (r : Fin 4096) (q' : Fin 1024), i = ix2 r q' := ⟨i 0, i 1, eq_ix2 i⟩
  have hq : q' = q := Fin.ext hi1
  subst hq
  exact matProd_block A A' B' B' p q' r q' (fun k => hA p k r hi0) (fun _ => rfl)

/-! ## Output window 4 -/

/-- The body's stored value is the product of its two loaded blocks (the change of format is the identity on the extended reals). -/
theorem pay4_eq (x0 : Vec Ideal S512x1024 .bf16) (x : Vec Ideal S1024x1024 .bf16) :
    k0_pay2 x0 x = matProd x0 x := by
  unfold k0_pay2 k0_pay1
  dsimp only
  rw [shapeCast_self, shapeCast_self]
  exact Eq.trans (funext fun i => rfl) (matmul_zero_eq_matProd (φ₁ := .bf16) (φ₂ := .bf16) _ rfl rfl rfl rfl rfl rfl none x0 x)

/-- The printed index maps over the grid: the left operand's block moves with the output's, the right operand is
    one block, and the output's row-block index stays below 8. -/
theorem idx_facts4 : ∀ t : Fin cfg0.N, win0_0.index t (0 : Fin 2) = win0_4.index t (0 : Fin 2)
    ∧ win0_0.index t (1 : Fin 2) = 0 ∧ win0_4.index t (1 : Fin 2) = 0 ∧ win0_4.index t (0 : Fin 2) ≤ 7
    ∧ win0_1.index t (0 : Fin 2) = 0 ∧ win0_1.index t (1 : Fin 2) = 0 :=
  (by decide +kernel : ∀ t : Fin grid0.N, _)

/-- Every row block is some point's. -/
theorem idx_onto4 : ∀ q0 : Fin 8, ∃ t : Fin cfg0.N, win0_4.index t = ![q0.val, 0] :=
  (by decide +kernel : ∀ q0 : Fin 8, ∃ t : Fin grid0.N, win0_4.index t = ![q0.val, 0])

/-- What point t writes back is block t of the whole product of the two arrays as the region finds them. -/
theorem flushed4_eq (c : Dev nD) (t : Fin cfg0.N) :
    (dat0 (F := Ideal) V c).flushed 4 t
      = ((cfg0.win 4).blk t).view.read (Elt Ideal) (matProd (V c main_v1) (V c main_v2)) := by
  show (cfg0.win 4).cut (grid0.coords t) ((dat0 (F := Ideal) V c).after 4 t) = _
  rw [after0_4]
  unfold out0_4
  rw [View.canon_unit_zero hz]
  simp only [View.ld_unit_zero (S := S512x1024) hz, View.ld_unit_zero (S := S1024x1024) hz]
  rw [pay4_eq]
  funext y
  obtain ⟨e0, e1, e2, e3, e4, e5⟩ := idx_facts4 t
  show matProd (iblk0 V c 0 t) (iblk0 V c 1 t) y
    = matProd (V c main_v1) (V c main_v2) (((cfg0.win 4).blk t).view.emb y)
  refine block_prod _ _ _ _ (win0_4.index t (0 : Fin 2)) y _ ?_ ?_ ?_ ?_
  · show win0_4.index t (0 : Fin 2) * 512 + 1 * (y 0).val = _
    omega
  · show win0_4.index t (1 : Fin 2) * 1024 + 1 * (y 1).val = _
    omega
  · intro p k r hr
    show V c main_v1 (((cfg0.win 0).blk t).view.emb (ix2 p k)) = V c main_v1 (ix2 r k)
    refine congrArg _ (funext fun a => Fin.ext ?_)
    match a with
    | ⟨0, _⟩ => show win0_0.index t (0 : Fin 2) * 512 + 1 * p.val = r.val; omega
    | ⟨1, _⟩ => show win0_0.index t (1 : Fin 2) * 1024 + 1 * k.val = k.val; omega
  · funext j
    show V c main_v2 (((cfg0.win 1).blk t).view.emb j) = V c main_v2 j
    refine congrArg _ (funext fun a => Fin.ext ?_)
    match a with
    | ⟨0, _⟩ => show win0_1.index t (0 : Fin 2) * 1024 + 1 * (j 0).val = (j 0).val; omega
    | ⟨1, _⟩ => show win0_1.index t (1 : Fin 2) * 1024 + 1 * (j 1).val = (j 1).val; omega

/-- An index of the array is in point t's block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_0).slice (win0_4.rect t)).set ↔ _
  rw [View.set_slice_whole, Rect.mem_set_unit]
  exact Iff.rfl

/-- The eight row blocks cover the array: row r is in block r / 512. -/
theorem cover4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ := idx_onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- The array after the region: the whole product. -/
theorem final4 (c : Dev nD) :
    (dat0 (F := Ideal) V c).arrAt 4 cfg0.N = matProd (V c main_v1) (V c main_v2) :=
  (dat0 (F := Ideal) V c).arrAt_eq_of_cover 4 _ (fun t _ => flushed4_eq V c t) (cover4)

/-! ## Output window 5 -/

/-- The body's stored value is the product of its two loaded blocks. -/
theorem pay5_eq (x0 : Vec Ideal S512x1024 .bf16) (x : Vec Ideal S1024x1024 .bf16) :
    k0_pay3 x0 x = matProd x0 x := by
  unfold k0_pay3 k0_pay1
  dsimp only
  rw [shapeCast_self, shapeCast_self]
  exact matmul_zero_eq_matProd _ rfl rfl rfl rfl rfl rfl none x0 x

/-- The printed index maps over the grid: the left operand's block moves with the output's, the right operand is
    one block, and the output's row-block index stays below 8. -/
theorem idx_facts5 : ∀ t : Fin cfg0.N, win0_0.index t (0 : Fin 2) = win0_5.index t (0 : Fin 2)
    ∧ win0_0.index t (1 : Fin 2) = 0 ∧ win0_5.index t (1 : Fin 2) = 0 ∧ win0_5.index t (0 : Fin 2) ≤ 7
    ∧ win0_2.index t (0 : Fin 2) = 0 ∧ win0_2.index t (1 : Fin 2) = 0 :=
  (by decide +kernel : ∀ t : Fin grid0.N, _)

/-- Every row block is some point's. -/
theorem idx_onto5 : ∀ q0 : Fin 8, ∃ t : Fin cfg0.N, win0_5.index t = ![q0.val, 0] :=
  (by decide +kernel : ∀ q0 : Fin 8, ∃ t : Fin grid0.N, win0_5.index t = ![q0.val, 0])

/-- What point t writes back is block t of the whole product of the two arrays as the region finds them. -/
theorem flushed5_eq (c : Dev nD) (t : Fin cfg0.N) :
    (dat0 (F := Ideal) V c).flushed 5 t
      = ((cfg0.win 5).blk t).view.read (Elt Ideal) (matProd (V c main_v1) (V c main_v3)) := by
  show (cfg0.win 5).cut (grid0.coords t) ((dat0 (F := Ideal) V c).after 5 t) = _
  rw [after0_5]
  unfold out0_5
  rw [View.canon_unit_zero hz]
  simp only [View.ld_unit_zero (S := S512x1024) hz, View.ld_unit_zero (S := S1024x1024) hz]
  rw [pay5_eq]
  funext y
  obtain ⟨e0, e1, e2, e3, e4, e5⟩ := idx_facts5 t
  show matProd (iblk0 V c 0 t) (iblk0 V c 2 t) y
    = matProd (V c main_v1) (V c main_v3) (((cfg0.win 5).blk t).view.emb y)
  refine block_prod _ _ _ _ (win0_5.index t (0 : Fin 2)) y _ ?_ ?_ ?_ ?_
  · show win0_5.index t (0 : Fin 2) * 512 + 1 * (y 0).val = _
    omega
  · show win0_5.index t (1 : Fin 2) * 1024 + 1 * (y 1).val = _
    omega
  · intro p k r hr
    show V c main_v1 (((cfg0.win 0).blk t).view.emb (ix2 p k)) = V c main_v1 (ix2 r k)
    refine congrArg _ (funext fun a => Fin.ext ?_)
    match a with
    | ⟨0, _⟩ => show win0_0.index t (0 : Fin 2) * 512 + 1 * p.val = r.val; omega
    | ⟨1, _⟩ => show win0_0.index t (1 : Fin 2) * 1024 + 1 * k.val = k.val; omega
  · funext j
    show V c main_v3 (((cfg0.win 2).blk t).view.emb j) = V c main_v3 j
    refine congrArg _ (funext fun a => Fin.ext ?_)
    match a with
    | ⟨0, _⟩ => show win0_2.index t (0 : Fin 2) * 1024 + 1 * (j 0).val = (j 0).val; omega
    | ⟨1, _⟩ => show win0_2.index t (1 : Fin 2) * 1024 + 1 * (j 1).val = (j 1).val; omega

/-- An index of the array is in point t's block iff each coordinate is in the block's range on its axis. -/
theorem mem_blk5 (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5_1).slice (win0_5.rect t)).set ↔ _
  rw [View.set_slice_whole, Rect.mem_set_unit]
  exact Iff.rfl

/-- The eight row blocks cover the array: row r is in block r / 512. -/
theorem cover5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ := idx_onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- The array after the region: the whole product. -/
theorem final5 (c : Dev nD) :
    (dat0 (F := Ideal) V c).arrAt 5 cfg0.N = matProd (V c main_v1) (V c main_v3) :=
  (dat0 (F := Ideal) V c).arrAt_eq_of_cover 5 _ (fun t _ => flushed5_eq V c t) (cover5)

/-! ## Output window 6 -/

/-- The body's stored value is the product of its two loaded blocks. -/
theorem pay6_eq (x0 : Vec Ideal S512x1024 .bf16) (x : Vec Ideal S1024x1024 .bf16) :
    k0_pay4 x0 x = matProd x0 x := by
  unfold k0_pay4 k0_pay1
  dsimp only
  rw [shapeCast_self, shapeCast_self]
  exact matmul_zero_eq_matProd _ rfl rfl rfl rfl rfl rfl none x0 x

/-- The printed index maps over the grid: the left operand's block moves with the output's, the right operand is
    one block, and the output's row-block index stays below 8. -/
theorem idx_facts6 : ∀ t : Fin cfg0.N, win0_0.index t (0 : Fin 2) = win0_6.index t (0 : Fin 2)
    ∧ win0_0.index t (1 : Fin 2) = 0 ∧ win0_6.index t (1 : Fin 2) = 0 ∧ win0_6.index t (0 : Fin 2) ≤ 7
    ∧ win0_3.index t (0 : Fin 2) = 0 ∧ win0_3.index t (1 : Fin 2) = 0 :=
  (by decide +kernel : ∀ t : Fin grid0.N, _)

/-- Every row block is some point's. -/
theorem idx_onto6 : ∀ q0 : Fin 8, ∃ t : Fin cfg0.N, win0_6.index t = ![q0.val, 0] :=
  (by decide +kernel : ∀ q0 : Fin 8, ∃ t : Fin grid0.N, win0_6.index t = ![q0.val, 0])

/-- What point t writes back is block t of the whole product of the two arrays as the region finds them. -/
theorem flushed6_eq (c : Dev nD) (t : Fin cfg0.N) :
    (dat0 (F := Ideal) V c).flushed 6 t
      = ((cfg0.win 6).blk t).view.read (Elt Ideal) (matProd (V c main_v1) (V c main_v4)) := by
  show (cfg0.win 6).cut (grid0.coords t) ((dat0 (F := Ideal) V c).after 6 t) = _
  rw [after0_6]
  unfold out0_6
  rw [View.canon_unit_zero hz]
  simp only [View.ld_unit_zero (S := S512x1024) hz, View.ld_unit_zero (S := S1024x1024) hz]
  rw [pay6_eq]
  funext y
  obtain ⟨e0, e1, e2, e3, e4, e5⟩ := idx_facts6 t
  show matProd (iblk0 V c 0 t) (iblk0 V c 3 t) y
    = matProd (V c main_v1) (V c main_v4) (((cfg0.win 6).blk t).view.emb y)
  refine block_prod _ _ _ _ (win0_6.index t (0 : Fin 2)) y _ ?_ ?_ ?_ ?_
  · show win0_6.index t (0 : Fin 2) * 512 + 1 * (y 0).val = _
    omega
  · show win0_6.index t (1 : Fin 2) * 1024 + 1 * (y 1).val = _
    omega
  · intro p k r hr
    show V c main_v1 (((cfg0.win 0).blk t).view.emb (ix2 p k)) = V c main_v1 (ix2 r k)
    refine congrArg _ (funext fun a => Fin.ext ?_)
    match a with
    | ⟨0, _⟩ => show win0_0.index t (0 : Fin 2) * 512 + 1 * p.val = r.val; omega
    | ⟨1, _⟩ => show win0_0.index t (1 : Fin 2) * 1024 + 1 * k.val = k.val; omega
  · funext j
    show V c main_v4 (((cfg0.win 3).blk t).view.emb j) = V c main_v4 j
    refine congrArg _ (funext fun a => Fin.ext ?_)
    match a with
    | ⟨0, _⟩ => show win0_3.index t (0 : Fin 2) * 1024 + 1 * (j 0).val = (j 0).val; omega
    | ⟨1, _⟩ => show win0_3.index t (1 : Fin 2) * 1024 + 1 * (j 1).val = (j 1).val; omega

/-- An index of the array is in point t's block iff each coordinate is in the block's range on its axis. -/
theorem mem_blk6 (t : Fin cfg0.N) (i : S4096x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v5_2).slice (win0_6.rect t)).set ↔ _
  rw [View.set_slice_whole, Rect.mem_set_unit]
  exact Iff.rfl

/-- The eight row blocks cover the array: row r is in block r / 512. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ := idx_onto6 ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1024 ≤ (i 1).val ∧ (i 1).val < win0_6.index t (1 : Fin 2) * 1024 + 1024
    omega

/-- The array after the region: the whole product. -/
theorem final6 (c : Dev nD) :
    (dat0 (F := Ideal) V c).arrAt 6 cfg0.N = matProd (V c main_v1) (V c main_v4) :=
  (dat0 (F := Ideal) V c).arrAt_eq_of_cover 6 _ (fun t _ => flushed6_eq V c t) (cover6)

end Cert.KernelIdeal.R0

end
-- ==== Proof.AttnSpec.lean ====
/-
  One row of dot-product attention over a key/value sequence that is the concatenation of two halves, written two
  ways on the extended reals.

  A query row q (64 entries), a key table Kf (4096 rows of 64) and one column Vf of the value table (4096 entries).
  The first reading scales the query by a constant before the dot products, takes the row maximum and the normalising
  sum half by half, weights the values half by half and divides once at the end. The second divides every dot product
  by a constant, takes the maximum and the sum over the whole row, normalises every weight and then sums the
  weighted values. Nothing here mentions a program.
-/
import Mathlib.Algebra.BigOperators.Fin
import Mathlib.Data.EReal.Inv
import Idealize.ShloMosaic.PureOps.Ideal

open scoped BigOperators

noncomputable section

namespace Cert.Attn

open Idealize.ShloMosaic

/-- Position k of the first half of the 4096 keys. -/
def lo (k : Fin 2048) : Fin 4096 := ⟨k.val, by omega⟩
/-- Position k of the second half of the 4096 keys. -/
def hi (k : Fin 2048) : Fin 4096 := ⟨2048 + k.val, by omega⟩

/-- The score of key k with the query scaled first: the sum over d of (q d · cs) · Kf k d. -/
def kScore (q : Fin 64 → EReal) (Kf : Fin 4096 → Fin 64 → EReal) (cs : EReal) (k : Fin 4096) : EReal :=
  ∑ d : Fin 64, (q d * cs) * Kf k d

/-- The row maximum taken half by half, each from −∞, then joined. -/
def kMax (q : Fin 64 → EReal) (Kf : Fin 4096 → Fin 64 → EReal) (cs : EReal) : EReal :=
  max ((Finset.univ : Finset (Fin 2048)).fold max (⊥ : EReal) fun k => kScore q Kf cs (lo k))
      ((Finset.univ : Finset (Fin 2048)).fold max (⊥ : EReal) fun k => kScore q Kf cs (hi k))

/-- The weight of key k: the exponential of its score less the row maximum. -/
def kWeight (q : Fin 64 → EReal) (Kf : Fin 4096 → Fin 64 → EReal) (cs : EReal) (k : Fin 4096) : EReal :=
  Ideal.exp (kScore q Kf cs k - kMax q Kf cs)

/-- The attention output with the halves weighted separately and one division at the end. -/
def kAttn (q : Fin 64 → EReal) (Kf : Fin 4096 → Fin 64 → EReal) (Vf : Fin 4096 → EReal) (cs : EReal) : EReal :=
  Ideal.div
    ((∑ k : Fin 2048, kWeight q Kf cs (lo k) * Vf (lo k)) + ∑ k : Fin 2048, kWeight q Kf cs (hi k) * Vf (hi k))
    ((∑ k : Fin 2048, kWeight q Kf cs (lo k)) + ∑ k : Fin 2048, kWeight q Kf cs (hi k))

/-- The score of key k with the dot product divided by c8. -/
def rScore (q : Fin 64 → EReal) (Kf : Fin 4096 → Fin 64 → EReal) (c8 : EReal) (k : Fin 4096) : EReal :=
  Ideal.div (∑ d : Fin 64, q d * Kf k d) c8

/-- The row maximum over all 4096 keys from −∞, joined once more with −∞. -/
def rMax (q : Fin 64 → EReal) (Kf : Fin 4096 → Fin 64 → EReal) (c8 : EReal) : EReal :=
  max (⊥ : EReal) ((Finset.univ : Finset (Fin 4096)).fold max (⊥ : EReal) fun k => rScore q Kf c8 k)

/-- The weight of key k in the second reading. -/
def rWeight (q : Fin 64 → EReal) (Kf : Fin 4096 → Fin 64 → EReal) (c8 : EReal) (k : Fin 4096) : EReal :=
  Ideal.exp (rScore q Kf c8 k - rMax q Kf c8)

/-- The attention output with every weight normalised by the row's total (from zero) before the values are summed. -/
def rAttn (q : Fin 64 → EReal) (Kf : Fin 4096 → Fin 64 → EReal) (Vf : Fin 4096 → EReal) (c8 : EReal) : EReal :=
  ∑ k : Fin 4096, Ideal.div (rWeight q Kf c8 k) ((0 : EReal) + ∑ k' : Fin 4096, rWeight q Kf c8 k') * Vf k

end Cert.Attn

end
-- ==== Proof.AttnCat.lean ====
/-
  Two half-length sequences laid end to end, and the joined sequence read back at a position of either half.
  Nothing here mentions a program.
-/
import proofs.«124896_j33852932227543_2_alg».proof.Proof.AttnSpec

namespace Cert.Attn

/-- The sequence of 4096 entries whose first 2048 are a's and whose last 2048 are b's. -/
def cat2 {α : Type} (a b : Fin 2048 → α) (k : Fin 4096) : α :=
  if h : k.val < 2048 then a ⟨k.val, h⟩ else b ⟨k.val - 2048, by have := k.isLt; omega⟩

theorem cat2_lo {α : Type} (a b : Fin 2048 → α) (k : Fin 2048) : cat2 a b (lo k) = a k := by
  unfold cat2 lo
  rw [dif_pos k.isLt]

theorem cat2_hi {α : Type} (a b : Fin 2048 → α) (k : Fin 2048) : cat2 a b (hi k) = b k := by
  unfold cat2 hi
  have h : ¬ (2048 + k.val < 2048) := by omega
  rw [dif_neg h]
  exact congrArg b (Fin.ext (by show 2048 + k.val - 2048 = k.val; omega))

end Cert.Attn
-- ==== Proof.AttnArrays.lean ====
/-
  Dot-product attention over slabs, as one function of whole arrays on the extended reals: 32 slabs of 2048 query
  rows of 64, against the slab's 2048 cached keys followed by its 2048 new keys, weighting the slab's cached values
  followed by its new values. Nothing here mentions a program.
-/
import proofs.«124896_j33852932227543_2_alg».proof.Proof.AttnSpec
import proofs.«124896_j33852932227543_2_alg».proof.Proof.AttnCat
import Idealize.ShloMosaic.Lib.ValueIdx

noncomputable section

namespace Cert.Attn

open Idealize.ShloMosaic Idealize.ShloMosaic.ValueIdx

/-- Entry (g, s, j) of the output from row s of slab g of the queries Q and slabs g of the cached and the new keys
    (Kc, Kn) and values (Vc, Vn); the query is scaled by the constant whose bit pattern is 3E000000. -/
def G1 (Q Kc Vc Kn Vn : (⟨3, ![32, 2048, 64]⟩ : Shape).Idx → EReal) : (⟨3, ![32, 2048, 64]⟩ : Shape).Idx → EReal := fun i =>
  kAttn (fun d => Q (ix3 (i 0) (i 1) d))
    (fun k d => cat2 (fun k' => Kc (ix3 (i 0) k' d)) (fun k' => Kn (ix3 (i 0) k' d)) k)
    (fun k => cat2 (fun k' => Vc (ix3 (i 0) k' (i 2))) (fun k' => Vn (ix3 (i 0) k' (i 2))) k)
    (Ideal.ofBits .f32 0x3E000000#32)

theorem G1_apply (Q Kc Vc Kn Vn : (⟨3, ![32, 2048, 64]⟩ : Shape).Idx → EReal) (g : Fin 32) (s : Fin 2048) (j : Fin 64) :
    G1 Q Kc Vc Kn Vn (ix3 g s j)
      = kAttn (fun d => Q (ix3 g s d))
          (fun k d => cat2 (fun k' => Kc (ix3 g k' d)) (fun k' => Kn (ix3 g k' d)) k)
          (fun k => cat2 (fun k' => Vc (ix3 g k' j)) (fun k' => Vn (ix3 g k' j)) k)
          (Ideal.ofBits .f32 0x3E000000#32) := rfl

end Cert.Attn

end
-- ==== Proof.Region1.lean ====
/-
  The attention region's output array, read as a value on the extended reals.

  The region walks 32 × 16 points: at point (g, u) it loads rows 128 u … 128 u + 127 of slab g of the query array and
  the whole slab g of four key / value arrays (the cached and the new keys, the cached and the new values), and
  writes 128 rows of 64 to the same rows of slab g of the output. Row s of slab g of the output is therefore one
  function of row s of the query slab and of the four slabs g, whatever the point that wrote it: dot-product attention
  of that query row over the cached keys followed by the new keys.

  What the body stores at one position of its block, as a function of its five loaded blocks, is proved apart; here
  it enters as the hypothesis `PayloadSpec`.
-/
import proofs.«124896_j33852932227543_2_alg».proof.Proof.Gen.KernelIdeal.Frame
import proofs.«124896_j33852932227543_2_alg».proof.Proof.AttnSpec
import proofs.«124896_j33852932227543_2_alg».proof.Proof.AttnCat
import proofs.«124896_j33852932227543_2_alg».proof.Proof.AttnArrays
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Attn

/-- The body's stored value at row p, column j of its block is the attention output, in the reading that scales the
    query first and works half by half, of row p of the loaded query block over the loaded cached keys followed by the
    loaded new keys, weighting column j of the loaded cached values followed by the loaded new values. -/
def PayloadSpec : Prop :=
  ∀ (x0 : Vec Ideal S1x128x64 .bf16) (x1 x2 x3 x4 : Vec Ideal S1x2048x64 .f32) (p : Fin 128) (j : Fin 64),
    k1_pay1 (k1_pay3 x2) (k1_pay4 x4) (k1_pay8 x0 x1 x3) (k1_pay9 x0 x1 x3) (k1_pay10 x0 x1 x3) (ix3 0 p j)
      = kAttn (fun d => x0 (ix3 0 p d))
          (fun k d => cat2 (fun k' => x1 (ix3 0 k' d)) (fun k' => x3 (ix3 0 k' d)) k)
          (fun k => cat2 (fun k' => x2 (ix3 0 k' j)) (fun k' => x4 (ix3 0 k' j)) k)
          (Ideal.ofBits .f32 0x3E000000#32)

/-- The body's stored block is the matching block of `G1` when its loaded blocks are the matching blocks of the five
    arrays: row p of the query block is row 128 u + p of slab g, and the key / value blocks are slabs g. -/
theorem block_attn (hp : PayloadSpec) (Q Kc Vc Kn Vn : S32x2048x64.Idx → EReal) (x0 : Vec Ideal S1x128x64 .bf16)
    (x1 x2 x3 x4 : Vec Ideal S1x2048x64 .f32) (g u : Nat) (y : S1x128x64.Idx) (i : S32x2048x64.Idx)
    (hi0 : (i 0).val = g + (y 0).val) (hi1 : (i 1).val = u * 128 + (y 1).val) (hi2 : (i 2).val = (y 2).val)
    (h0 : ∀ (p : Fin 128) (d : Fin 64) (gg : Fin 32) (s : Fin 2048), gg.val = g → s.val = u * 128 + p.val →
      x0 (ix3 0 p d) = Q (ix3 gg s d))
    (h1 : ∀ (k : Fin 2048) (d : Fin 64) (gg : Fin 32), gg.val = g → x1 (ix3 0 k d) = Kc (ix3 gg k d))
    (h2 : ∀ (k : Fin 2048) (d : Fin 64) (gg : Fin 32), gg.val = g → x2 (ix3 0 k d) = Vc (ix3 gg k d))
    (h3 : ∀ (k : Fin 2048) (d : Fin 64) (gg : Fin 32), gg.val = g → x3 (ix3 0 k d) = Kn (ix3 gg k d))
    (h4 : ∀ (k : Fin 2048) (d : Fin 64) (gg : Fin 32), gg.val = g → x4 (ix3 0 k d) = Vn (ix3 gg k d)) :
    k1_pay1 (k1_pay3 x2) (k1_pay4 x4) (k1_pay8 x0 x1 x3) (k1_pay9 x0 x1 x3) (k1_pay10 x0 x1 x3) y
      = G1 Q Kc Vc Kn Vn i := by
  obtain ⟨y0, p, j, rfl⟩ : ∃ (y0 : Fin 1) (p : Fin 128) (j : Fin 64), y = ix3 y0 p j := ⟨y 0, y 1, y 2, eq_ix3 y⟩
  obtain ⟨gg, s, j', rfl⟩ : ∃ (gg : Fin 32) (s : Fin 2048) (j' : Fin 64), i = ix3 gg s j' := ⟨i 0, i 1, i 2, eq_ix3 i⟩
  have hy0 : y0 = 0 := Fin.ext (by have := y0.isLt; omega)
  subst hy0
  have hj : j' = j := Fin.ext hi2
  subst hj
  have hg : gg.val = g := by have : gg.val = g + (0 : Fin 1).val := hi0; simpa using this
  have hs : s.val = u * 128 + p.val := hi1
  rw [hp x0 x1 x2 x3 x4 p j', G1_apply]
  have e1 : (fun d => x0 (ix3 0 p d)) = (fun d => Q (ix3 gg s d)) := funext fun d => h0 p d gg s hg hs
  have e2 : (fun (k : Fin 4096) (d : Fin 64) => cat2 (fun k' => x1 (ix3 0 k' d)) (fun k' => x3 (ix3 0 k' d)) k)
      = (fun k d => cat2 (fun k' => Kc (ix3 gg k' d)) (fun k' => Kn (ix3 gg k' d)) k) := by
    funext k d
    rw [show (fun k' => x1 (ix3 0 k' d)) = (fun k' => Kc (ix3 gg k' d)) from funext fun k' => h1 k' d gg hg,
      show (fun k' => x3 (ix3 0 k' d)) = (fun k' => Kn (ix3 gg k' d)) from funext fun k' => h3 k' d gg hg]
  have e3 : (fun (k : Fin 4096) => cat2 (fun k' => x2 (ix3 0 k' j')) (fun k' => x4 (ix3 0 k' j')) k)
      = (fun k => cat2 (fun k' => Vc (ix3 gg k' j')) (fun k' => Vn (ix3 gg k' j')) k) := by
    funext k
    rw [show (fun k' => x2 (ix3 0 k' j')) = (fun k' => Vc (ix3 gg k' j')) from funext fun k' => h2 k' j' gg hg,
      show (fun k' => x4 (ix3 0 k' j')) = (fun k' => Vn (ix3 gg k' j')) from funext fun k' => h4 k' j' gg hg]
  rw [e1, e2, e3]

theorem hz3 : (![0, 0, 0] : Fin 3 → Nat) = fun _ => 0 := funext fun a => by fin_cases a <;> rfl

/-! ## The printed index maps in closed form

  Point t of the 32 × 16 grid is (t / 16, t % 16). The query and the output windows take block (t / 16, t % 16, 0);
  the four key / value windows take block (t / 16, 0, 0). Each is checked over the 512 points. -/

theorem idx0 : ∀ t : Fin cfg1.N, win1_0.index t = ![t.val / 16, t.val % 16, 0] :=
  (by decide +kernel : ∀ t : Fin grid1.N, win1_0.index t = ![t.val / 16, t.val % 16, 0])

theorem idx5 : ∀ t : Fin cfg1.N, win1_5.index t = ![t.val / 16, t.val % 16, 0] :=
  (by decide +kernel : ∀ t : Fin grid1.N, win1_5.index t = ![t.val / 16, t.val % 16, 0])

theorem idx1 : ∀ t : Fin cfg1.N, win1_1.index t = ![t.val / 16, 0, 0] :=
  (by decide +kernel : ∀ t : Fin grid1.N, win1_1.index t = ![t.val / 16, 0, 0])

theorem idx2 : ∀ t : Fin cfg1.N, win1_2.index t = ![t.val / 16, 0, 0] :=
  (by decide +kernel : ∀ t : Fin grid1.N, win1_2.index t = ![t.val / 16, 0, 0])

theorem idx3 : ∀ t : Fin cfg1.N, win1_3.index t = ![t.val / 16, 0, 0] :=
  (by decide +kernel : ∀ t : Fin grid1.N, win1_3.index t = ![t.val / 16, 0, 0])

theorem idx4 : ∀ t : Fin cfg1.N, win1_4.index t = ![t.val / 16, 0, 0] :=
  (by decide +kernel : ∀ t : Fin grid1.N, win1_4.index t = ![t.val / 16, 0, 0])

/-- The grid has 512 points. -/
theorem point_lt (t : Fin cfg1.N) : t.val < 512 := lt_of_lt_of_eq t.isLt N_1

/-- The printed index maps over the grid: the query block moves with the output block, the four key / value blocks
    are slab g whole, and the output's block indices stay in their ranges. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_5.index t (0 : Fin 3) ≤ 31 ∧ win1_5.index t (1 : Fin 3) ≤ 15
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0 := fun t => by
  have ht := point_lt t
  have a0 : win1_0.index t (0 : Fin 3) = t.val / 16 := congrFun (idx0 t) 0
  have a1 : win1_0.index t (1 : Fin 3) = t.val % 16 := congrFun (idx0 t) 1
  have a2 : win1_0.index t (2 : Fin 3) = 0 := congrFun (idx0 t) 2
  have o0 : win1_5.index t (0 : Fin 3) = t.val / 16 := congrFun (idx5 t) 0
  have o1 : win1_5.index t (1 : Fin 3) = t.val % 16 := congrFun (idx5 t) 1
  have o2 : win1_5.index t (2 : Fin 3) = 0 := congrFun (idx5 t) 2
  have b0 : win1_1.index t (0 : Fin 3) = t.val / 16 := congrFun (idx1 t) 0
  have b1 : win1_1.index t (1 : Fin 3) = 0 := congrFun (idx1 t) 1
  have b2 : win1_1.index t (2 : Fin 3) = 0 := congrFun (idx1 t) 2
  have c0 : win1_2.index t (0 : Fin 3) = t.val / 16 := congrFun (idx2 t) 0
  have c1 : win1_2.index t (1 : Fin 3) = 0 := congrFun (idx2 t) 1
  have c2 : win1_2.index t (2 : Fin 3) = 0 := congrFun (idx2 t) 2
  have d0 : win1_3.index t (0 : Fin 3) = t.val / 16 := congrFun (idx3 t) 0
  have d1 : win1_3.index t (1 : Fin 3) = 0 := congrFun (idx3 t) 1
  have d2 : win1_3.index t (2 : Fin 3) = 0 := congrFun (idx3 t) 2
  have f0 : win1_4.index t (0 : Fin 3) = t.val / 16 := congrFun (idx4 t) 0
  have f1 : win1_4.index t (1 : Fin 3) = 0 := congrFun (idx4 t) 1
  have f2 : win1_4.index t (2 : Fin 3) = 0 := congrFun (idx4 t) 2
  refine ⟨?_, ?_, ?_, ?_, ?_, ?_, ?_, ?_, ?_, ?_, ?_, ?_, ?_, ?_, ?_, ?_, ?_, ?_⟩ <;> omega

/-- Every (slab, row block) pair is some point's: the point 16 q0 + q1. -/
theorem idx_onto (q0 : Fin 32) (q1 : Fin 16) : ∃ t : Fin cfg1.N, win1_5.index t = ![q0.val, q1.val, 0] := by
  have h0 := q0.isLt
  have h1 := q1.isLt
  refine ⟨⟨16 * q0.val + q1.val, lt_of_lt_of_eq (by omega : 16 * q0.val + q1.val < 512) N_1.symm⟩, ?_⟩
  rw [idx5]
  show ![(16 * q0.val + q1.val) / 16, (16 * q0.val + q1.val) % 16, 0] = ![q0.val, q1.val, 0]
  rw [show (16 * q0.val + q1.val) / 16 = q0.val by omega, show (16 * q0.val + q1.val) % 16 = q1.val by omega]

variable (V : (c : Dev nD) → (b : Ref sig .tc) → Buf (Elt Ideal) ((c : Thread nD τ).loc b))

/-- What point t writes back is block t of `G1` of the five arrays as the region finds them. -/
theorem flushed5_eq (hp : PayloadSpec) (c : Dev nD) (t : Fin cfg1.N) :
    (dat1 (F := Ideal) V c).flushed 5 t
      = ((cfg1.win 5).blk t).view.read (Elt Ideal)
          (G1 (V c main_v14) (V c main_v15) (V c main_v16) (V c main_v17) (V c main_v18)) := by
  show (cfg1.win 5).cut (grid1.coords t) ((dat1 (F := Ideal) V c).after 5 t) = _
  rw [after1_5]
  unfold out1_5
  rw [View.canon_unit_zero hz3]
  simp only [View.ld_unit_zero (S := S1x128x64) hz3, View.ld_unit_zero (S := S1x2048x64) hz3]
  funext y
  obtain ⟨a0, a1, a2, a3, a4, a5, b0, b1, b2, c0, c1, c2, d0, d1, d2, f0, f1, f2⟩ := idx_facts t
  show k1_pay1 (k1_pay3 (iblk1 V c 2 t)) (k1_pay4 (iblk1 V c 4 t)) (k1_pay8 (iblk1 V c 0 t) (iblk1 V c 1 t) (iblk1 V c 3 t))
      (k1_pay9 (iblk1 V c 0 t) (iblk1 V c 1 t) (iblk1 V c 3 t)) (k1_pay10 (iblk1 V c 0 t) (iblk1 V c 1 t) (iblk1 V c 3 t)) y
    = G1 (V c main_v14) (V c main_v15) (V c main_v16) (V c main_v17) (V c main_v18) (((cfg1.win 5).blk t).view.emb y)
  refine block_attn hp _ _ _ _ _ _ _ _ _ _ (win1_5.index t (0 : Fin 3)) (win1_5.index t (1 : Fin 3)) y _ ?_ ?_ ?_ ?_ ?_ ?_ ?_ ?_
  · show win1_5.index t (0 : Fin 3) * 1 + 1 * (y 0).val = _
    omega
  · show win1_5.index t (1 : Fin 3) * 128 + 1 * (y 1).val = _
    omega
  · show win1_5.index t (2 : Fin 3) * 64 + 1 * (y 2).val = _
    omega
  · intro p d gg s hg hs
    show V c main_v14 (((cfg1.win 0).blk t).view.emb (ix3 0 p d)) = V c main_v14 (ix3 gg s d)
    refine congrArg _ (funext fun a => Fin.ext ?_)
    match a with
    | ⟨0, _⟩ => show win1_0.index t (0 : Fin 3) * 1 + 1 * 0 = gg.val; omega
    | ⟨1, _⟩ => show win1_0.index t (1 : Fin 3) * 128 + 1 * p.val = s.val; omega
    | ⟨2, _⟩ => show win1_0.index t (2 : Fin 3) * 64 + 1 * d.val = d.val; omega
  · intro k d gg hg
    show V c main_v15 (((cfg1.win 1).blk t).view.emb (ix3 0 k d)) = V c main_v15 (ix3 gg k d)
    refine congrArg _ (funext fun a => Fin.ext ?_)
    match a with
    | ⟨0, _⟩ => show win1_1.index t (0 : Fin 3) * 1 + 1 * 0 = gg.val; omega
    | ⟨1, _⟩ => show win1_1.index t (1 : Fin 3) * 2048 + 1 * k.val = k.val; omega
    | ⟨2, _⟩ => show win1_1.index t (2 : Fin 3) * 64 + 1 * d.val = d.val; omega
  · intro k d gg hg
    show V c main_v16 (((cfg1.win 2).blk t).view.emb (ix3 0 k d)) = V c main_v16 (ix3 gg k d)
    refine congrArg _ (funext fun a => Fin.ext ?_)
    match a with
    | ⟨0, _⟩ => show win1_2.index t (0 : Fin 3) * 1 + 1 * 0 = gg.val; omega
    | ⟨1, _⟩ => show win1_2.index t (1 : Fin 3) * 2048 + 1 * k.val = k.val; omega
    | ⟨2, _⟩ => show win1_2.index t (2 : Fin 3) * 64 + 1 * d.val = d.val; omega
  · intro k d gg hg
    show V c main_v17 (((cfg1.win 3).blk t).view.emb (ix3 0 k d)) = V c main_v17 (ix3 gg k d)
    refine congrArg _ (funext fun a => Fin.ext ?_)
    match a with
    | ⟨0, _⟩ => show win1_3.index t (0 : Fin 3) * 1 + 1 * 0 = gg.val; omega
    | ⟨1, _⟩ => show win1_3.index t (1 : Fin 3) * 2048 + 1 * k.val = k.val; omega
    | ⟨2, _⟩ => show win1_3.index t (2 : Fin 3) * 64 + 1 * d.val = d.val; omega
  · intro k d gg hg
    show V c main_v18 (((cfg1.win 4).blk t).view.emb (ix3 0 k d)) = V c main_v18 (ix3 gg k d)
    refine congrArg _ (funext fun a => Fin.ext ?_)
    match a with
    | ⟨0, _⟩ => show win1_4.index t (0 : Fin 3) * 1 + 1 * 0 = gg.val; omega
    | ⟨1, _⟩ => show win1_4.index t (1 : Fin 3) * 2048 + 1 * k.val = k.val; omega
    | ⟨2, _⟩ => show win1_4.index t (2 : Fin 3) * 64 + 1 * d.val = d.val; omega

/-- An index of the array is in point t's block iff each coordinate is in the block's range on its axis. -/
theorem mem_blk5 (t : Fin cfg1.N) (i : S32x2048x64.Idx) :
    i ∈ ((cfg1.win 5).blk t).view.set ↔ ∀ a : Fin 3, win1_5.index t a * S1x128x64.size a ≤ (i a).val
      ∧ (i a).val < win1_5.index t a * S1x128x64.size a + S1x128x64.size a := by
  show i ∈ ((View.whole main_v19).slice (win1_5.rect t)).set ↔ _
  rw [View.set_slice_whole, Rect.mem_set_unit]
  exact Iff.rfl

/-- The 32 × 16 blocks cover the array: row s of slab g is in block (g, s / 128). -/
theorem cover5 (i : S32x2048x64.Idx) :
    ∃ t : Fin cfg1.N, (cfg1.win 5).flush t = true ∧ i ∈ ((cfg1.win 5).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 128, by omega⟩
  have q0 : win1_5.index t (0 : Fin 3) = (i 0).val := congrFun ht 0
  have q1 : win1_5.index t (1 : Fin 3) = (i 1).val / 128 := congrFun ht 1
  have q2 : win1_5.index t (2 : Fin 3) = 0 := congrFun ht 2
  refine ⟨t, flush1_5 t, ?_⟩
  rw [mem_blk5]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 128 ≤ (i 1).val ∧ (i 1).val < win1_5.index t (1 : Fin 3) * 128 + 128
    omega
  | ⟨2, _⟩ =>
    show win1_5.index t (2 : Fin 3) * 64 ≤ (i 2).val ∧ (i 2).val < win1_5.index t (2 : Fin 3) * 64 + 64
    omega

/-- The array after the region: attention of the five arrays. -/
theorem final5 (hp : PayloadSpec) (c : Dev nD) :
    (dat1 (F := Ideal) V c).arrAt 5 cfg1.N
      = G1 (V c main_v14) (V c main_v15) (V c main_v16) (V c main_v17) (V c main_v18) :=
  (dat1 (F := Ideal) V c).arrAt_eq_of_cover 5 _ (fun t _ => flushed5_eq V hp c t) (cover5)

end Cert.KernelIdeal.R1

end
-- ==== Proof.Region2.lean ====
/-
  The last grid region's output array, read as a value on the extended reals.

  The region walks eight blocks of 512 rows of a 4096×1024 left operand, multiplies each by one resident 1024×1024
  right operand and writes the product to the same rows of the output: the output array ends as the whole product.
-/
import proofs.«124896_j33852932227543_2_alg».proof.Proof.Gen.KernelIdeal.Frame
import proofs.«124896_j33852932227543_2_alg».proof.Proof.LibMatProd
import Idealize.ShloMosaic.Lib.Pipeline.Value
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd

variable (V : (c : Dev nD) → (b : Ref sig .tc) → Buf (Elt Ideal) ((c : Thread nD τ).loc b))

theorem hz : (![0, 0] : Fin 2 → Nat) = fun _ => 0 := funext fun a => by fin_cases a <;> rfl

/-- A block of 512 rows of the left operand times the whole right operand is the same 512 rows of the whole
    product: row p of block n is row 512 n + p of the array. -/
theorem block_prod (A : S4096x1024.Idx → EReal) (B : S1024x1024.Idx → EReal) (A' : S512x1024.Idx → EReal)
    (B' : S1024x1024.Idx → EReal) (n : Nat) (y : S512x1024.Idx) (i : S4096x1024.Idx)
    (hi0 : (i 0).val = n * 512 + (y 0).val) (hi1 : (i 1).val = (y 1).val)
    (hA : ∀ (p : Fin 512) (k : Fin 1024) (r : Fin 4096), r.val = n * 512 + p.val → A' (ix2 p k) = A (ix2 r k))
    (hB : B' = B) : matProd A' B' y = matProd A B i := by
  subst hB
  obtain ⟨p, q, rfl⟩ : ∃ (p : Fin 512) (q : Fin 1024), y = ix2 p q := ⟨y 0, y 1, eq_ix2 y⟩
  obtain ⟨r, q', rfl⟩ : ∃ (r : Fin 4096) (q' : Fin 1024), i = ix2 r q' := ⟨i 0, i 1, eq_ix2 i⟩
  have hq : q' = q := Fin.ext hi1
  subst hq
  exact matProd_block A A' B' B' p q' r q' (fun k => hA p k r hi0) (fun _ => rfl)

/-! ## Output window 2 -/

/-- The body's stored value is the product of its two loaded blocks. -/
theorem pay2_eq (x0 : Vec Ideal S512x1024 .bf16) (x : Vec Ideal S1024x1024 .bf16) :
    k2_pay1 x0 x = matProd x0 x := by
  unfold k2_pay1
  dsimp only
  rw [shapeCast_self, shapeCast_self]
  exact matmul_zero_eq_matProd _ rfl rfl rfl rfl rfl rfl none x0 x

/-- The printed index maps over the grid: the left operand's block moves with the output's, the right operand is
    one block, and the output's row-block index stays below 8. -/
theorem idx_facts2 : ∀ t : Fin cfg2.N, win2_0.index t (0 : Fin 2) = win2_2.index t (0 : Fin 2)
    ∧ win2_0.index t (1 : Fin 2) = 0 ∧ win2_2.index t (1 : Fin 2) = 0 ∧ win2_2.index t (0 : Fin 2) ≤ 7
    ∧ win2_1.index t (0 : Fin 2) = 0 ∧ win2_1.index t (1 : Fin 2) = 0 :=
  (by decide +kernel : ∀ t : Fin grid2.N, _)

/-- Every row block is some point's. -/
theorem idx_onto2 : ∀ q0 : Fin 8, ∃ t : Fin cfg2.N, win2_2.index t = ![q0.val, 0] :=
  (by decide +kernel : ∀ q0 : Fin 8, ∃ t : Fin grid2.N, win2_2.index t = ![q0.val, 0])

/-- What point t writes back is block t of the whole product of the two arrays as the region finds them. -/
theorem flushed2_eq (c : Dev nD) (t : Fin cfg2.N) :
    (dat2 (F := Ideal) V c).flushed 2 t
      = ((cfg2.win 2).blk t).view.read (Elt Ideal) (matProd (V c main_v23) (V c main_v24)) := by
  show (cfg2.win 2).cut (grid2.coords t) ((dat2 (F := Ideal) V c).after 2 t) = _
  rw [after2_2]
  unfold out2_2
  rw [View.canon_unit_zero hz]
  simp only [View.ld_unit_zero (S := S512x1024) hz, View.ld_unit_zero (S := S1024x1024) hz]
  rw [pay2_eq]
  funext y
  obtain ⟨e0, e1, e2, e3, e4, e5⟩ := idx_facts2 t
  show matProd (iblk2 V c 0 t) (iblk2 V c 1 t) y
    = matProd (V c main_v23) (V c main_v24) (((cfg2.win 2).blk t).view.emb y)
  refine block_prod _ _ _ _ (win2_2.index t (0 : Fin 2)) y _ ?_ ?_ ?_ ?_
  · show win2_2.index t (0 : Fin 2) * 512 + 1 * (y 0).val = _
    omega
  · show win2_2.index t (1 : Fin 2) * 1024 + 1 * (y 1).val = _
    omega
  · intro p k r hr
    show V c main_v23 (((cfg2.win 0).blk t).view.emb (ix2 p k)) = V c main_v23 (ix2 r k)
    refine congrArg _ (funext fun a => Fin.ext ?_)
    match a with
    | ⟨0, _⟩ => show win2_0.index t (0 : Fin 2) * 512 + 1 * p.val = r.val; omega
    | ⟨1, _⟩ => show win2_0.index t (1 : Fin 2) * 1024 + 1 * k.val = k.val; omega
  · funext j
    show V c main_v24 (((cfg2.win 1).blk t).view.emb j) = V c main_v24 j
    refine congrArg _ (funext fun a => Fin.ext ?_)
    match a with
    | ⟨0, _⟩ => show win2_1.index t (0 : Fin 2) * 1024 + 1 * (j 0).val = (j 0).val; omega
    | ⟨1, _⟩ => show win2_1.index t (1 : Fin 2) * 1024 + 1 * (j 1).val = (j 1).val; omega

/-- An index of the array is in point t's block iff each coordinate is in the block's range on its axis. -/
theorem mem_blk2 (t : Fin cfg2.N) (i : S4096x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v25).slice (win2_2.rect t)).set ↔ _
  rw [View.set_slice_whole, Rect.mem_set_unit]
  exact Iff.rfl

/-- The eight row blocks cover the array: row r is in block r / 512. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 1024 ≤ (i 1).val ∧ (i 1).val < win2_2.index t (1 : Fin 2) * 1024 + 1024
    omega

/-- The array after the region: the whole product. -/
theorem final2 (c : Dev nD) :
    (dat2 (F := Ideal) V c).arrAt 2 cfg2.N = matProd (V c main_v23) (V c main_v24) :=
  (dat2 (F := Ideal) V c).arrAt_eq_of_cover 2 _ (fun t _ => flushed2_eq V c t) (cover2)

end Cert.KernelIdeal.R2

end
-- ==== Proof.KernelSpec.lean ====
/-
  The idealized kernel program's three results as pure functions of its seven argument arrays, on the extended
  reals: the input flattened to 4096 rows and multiplied by each projection weight; rows and columns of a product
  rearranged to [batch, head, position, column]; a [2, 16, 2048, 64] array read as 32 slabs; two such arrays laid end
  to end along the position axis; dot-product attention slab by slab; the slabs merged back to 4096 rows of 1024; and
  the product with the last weight read back at [2, 2048, 1024]. Nothing here mentions an execution.
-/
import proofs.«124896_j33852932227543_2_alg».proof.Proof.Gen.KernelIdeal
import proofs.«124896_j33852932227543_2_alg».proof.Proof.LibMatProd
import proofs.«124896_j33852932227543_2_alg».proof.Proof.AttnArrays
import Idealize.ShloMosaic.Lib.Pipeline.Value

noncomputable section

namespace Cert.KernelIdeal.KV

open Cert.KernelIdeal Cert.KernelIdeal.Gen
open Idealize.ShloMosaic Idealize.ShloMosaic.ValueIdx
open Cert.Lib.MatProd Cert.Attn

/-! ## The program's value as pure functions of arrays -/

/-- The [2, 2048, 1024] input read as 4096 rows, times a 1024 × 1024 weight. -/
def proj (x : S2x2048x1024.Idx → EReal) (w : S1024x1024.Idx → EReal) : S4096x1024.Idx → EReal :=
  matProd (shapeCast S4096x1024 x shapeCasts_S2x2048x1024_S4096x1024) w

/-- Rows (b, s) and columns (h, d) of a 4096 × 1024 array rearranged to [b, h, s, d]. -/
def heads (p : S4096x1024.Idx → EReal) : S2x16x2048x64.Idx → EReal :=
  transpose S2x16x2048x64 [0, 2, 1, 3] (shapeCast S2x2048x16x64 p shapeCasts_S4096x1024_S2x2048x16x64)
    transposes_S2x2048x16x64_S2x16x2048x64_0_2_1_3

/-- A [2, 16, 2048, 64] array read as 32 slabs. -/
def slabs (a : S2x16x2048x64.Idx → EReal) : S32x2048x64.Idx → EReal :=
  shapeCast S32x2048x64 a shapeCasts_S2x16x2048x64_S32x2048x64

/-- Two [2, 16, 2048, 64] arrays laid end to end along the sequence axis. -/
def joined (a b : S2x16x2048x64.Idx → EReal) : S2x16x4096x64.Idx → EReal :=
  concatenate S2x16x4096x64 2 [⟨S2x16x2048x64, a⟩, ⟨S2x16x2048x64, b⟩] concatenates_S2x16x2048x64_S2x16x2048x64_S2x16x4096x64_d2

/-- The attention output, 32 slabs of 2048 rows of 64, from the input, the two cached arrays and the three projection
    weights. -/
def ctx (x0 : S2x2048x1024.Idx → EReal) (x1 x2 : S2x16x2048x64.Idx → EReal) (x3 x4 x5 : S1024x1024.Idx → EReal) :
    S32x2048x64.Idx → EReal :=
  G1 (slabs (heads (proj x0 x3))) (slabs x1) (slabs x2) (slabs (heads (proj x0 x4))) (slabs (heads (proj x0 x5)))

/-- 32 slabs read as [2, 16, 2048, 64], the heads moved next to the columns, and the result read as 4096 rows of 1024. -/
def merged (a : S32x2048x64.Idx → EReal) : S4096x1024.Idx → EReal :=
  shapeCast S4096x1024
    (shapeCast S2x2048x1024
      (transpose S2x2048x16x64 [0, 2, 1, 3] (shapeCast S2x16x2048x64 a shapeCasts_S32x2048x64_S2x16x2048x64)
        transposes_S2x16x2048x64_S2x2048x16x64_0_2_1_3)
      shapeCasts_S2x2048x16x64_S2x2048x1024)
    shapeCasts_S2x2048x1024_S4096x1024

/-- The first result: the merged attention output times the last weight, read back at [2, 2048, 1024]. -/
def out (x0 : S2x2048x1024.Idx → EReal) (x1 x2 : S2x16x2048x64.Idx → EReal) (x3 x4 x5 x6 : S1024x1024.Idx → EReal) :
    S2x2048x1024.Idx → EReal :=
  shapeCast S2x2048x1024 (matProd (merged (ctx x0 x1 x2 x3 x4 x5)) x6) shapeCasts_S4096x1024_S2x2048x1024

end Cert.KernelIdeal.KV

end
-- ==== Proof.KernelValue.lean ====
/-
  The three results of the idealized kernel program as functions of its seven arguments.

  The program is four stretches of host operations around three grid regions. Walking back from the last boundary:
  the first result is the last region's product read back at [2, 2048, 1024]; that product's left operand is the
  attention region's output with its heads merged back, its right operand the last weight; the attention region's
  five operands are the first region's three products with their heads split off (the queries, the new keys, the new
  values) and the two cached arrays, each read as 32 slabs; the first region's products are the flattened input
  times the three projection weights. The second and third results are the cached keys (values) followed along the
  sequence axis by the new keys (values); nothing after the second stretch of host operations writes them.
-/
import proofs.«124896_j33852932227543_2_alg».proof.Proof.Gen.KernelIdeal.Frame
import proofs.«124896_j33852932227543_2_alg».proof.Proof.Region0
import proofs.«124896_j33852932227543_2_alg».proof.Proof.Region1
import proofs.«124896_j33852932227543_2_alg».proof.Proof.Region2
import proofs.«124896_j33852932227543_2_alg».proof.Proof.LibMatProd
import proofs.«124896_j33852932227543_2_alg».proof.Proof.AttnArrays
import proofs.«124896_j33852932227543_2_alg».proof.Proof.KernelSpec
import Idealize.ShloMosaic.Lib.Pipeline.Value
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.MatProd Cert.Attn

variable (m : (ℓ : Loc nD τ sig) → Buf (Elt Ideal) ℓ) (ρ : Dev nD → PrngReg) (c : Dev nD)

/-! ## Before the first region: the input flattened, the three weights -/

theorem V1_v1 : W1 m ρ c (Proc.devRef .tc main_v1)
    = shapeCast S4096x1024 (truncf (F := Ideal) .bf16 (m ((c : Thread nD τ).loc main_arg0)) bitsLt_bf16_f32) shapeCasts_S2x2048x1024_S4096x1024 := by
  show StableHlo.after hostOps0 _ (Proc.devRef .tc main_v1) = _
  after_results
  rfl

theorem V1_v2 : W1 m ρ c (Proc.devRef .tc main_v2) = truncf (F := Ideal) .bf16 (m ((c : Thread nD τ).loc main_arg3)) bitsLt_bf16_f32 := by
  show StableHlo.after hostOps0 _ (Proc.devRef .tc main_v2) = _
  after_results

theorem V1_v3 : W1 m ρ c (Proc.devRef .tc main_v3) = truncf (F := Ideal) .bf16 (m ((c : Thread nD τ).loc main_arg4)) bitsLt_bf16_f32 := by
  show StableHlo.after hostOps0 _ (Proc.devRef .tc main_v3) = _
  after_results

theorem V1_v4 : W1 m ρ c (Proc.devRef .tc main_v4) = truncf (F := Ideal) .bf16 (m ((c : Thread nD τ).loc main_arg5)) bitsLt_bf16_f32 := by
  show StableHlo.after hostOps0 _ (Proc.devRef .tc main_v4) = _
  after_results

theorem W1_arg1 : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_arg2 : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_arg6 : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The first region: three products; the cached arrays and the last weight pass through -/

theorem W2_v5_0 : W2 m ρ c (Proc.devRef .tc main_v5_0)
    = matProd (W1 m ρ c (Proc.devRef .tc main_v1)) (W1 m ρ c (Proc.devRef .tc main_v2)) :=
  (W2_arr m ρ c 4).trans (R0.final4 (V1 m ρ) c)
theorem W2_v5_1 : W2 m ρ c (Proc.devRef .tc main_v5_1)
    = matProd (W1 m ρ c (Proc.devRef .tc main_v1)) (W1 m ρ c (Proc.devRef .tc main_v3)) :=
  (W2_arr m ρ c 5).trans (R0.final5 (V1 m ρ) c)
theorem W2_v5_2 : W2 m ρ c (Proc.devRef .tc main_v5_2)
    = matProd (W1 m ρ c (Proc.devRef .tc main_v1)) (W1 m ρ c (Proc.devRef .tc main_v4)) :=
  (W2_arr m ρ c 6).trans (R0.final6 (V1 m ρ) c)

theorem W2_arg1 : W2 m ρ c (Proc.devRef .tc main_arg1) = (m ((c : Thread nD τ).loc main_arg1)) :=
  (W2_of_ne m ρ c main_arg1 (by decide)).trans ((W1_arg1 m ρ c).trans rfl)
theorem W2_arg2 : W2 m ρ c (Proc.devRef .tc main_arg2) = (m ((c : Thread nD τ).loc main_arg2)) :=
  (W2_of_ne m ρ c main_arg2 (by decide)).trans ((W1_arg2 m ρ c).trans rfl)
theorem W2_arg6 : W2 m ρ c (Proc.devRef .tc main_arg6) = (m ((c : Thread nD τ).loc main_arg6)) :=
  (W2_of_ne m ρ c main_arg6 (by decide)).trans ((W1_arg6 m ρ c).trans rfl)

/-! ## Between the first and the second region: heads split off, slabs, the two joins -/

theorem V3_v14 : W3 m ρ c (Proc.devRef .tc main_v14)
    = shapeCast S32x2048x64 (transpose S2x16x2048x64 [0, 2, 1, 3]
        (shapeCast S2x2048x16x64 (W2 m ρ c (Proc.devRef .tc main_v5_0)) shapeCasts_S4096x1024_S2x2048x16x64)
        transposes_S2x2048x16x64_S2x16x2048x64_0_2_1_3) shapeCasts_S2x16x2048x64_S32x2048x64 := by
  show StableHlo.after hostOps1 _ (Proc.devRef .tc main_v14) = _
  after_results
  rfl

theorem V3_v17 : W3 m ρ c (Proc.devRef .tc main_v17)
    = shapeCast S32x2048x64 (transpose S2x16x2048x64 [0, 2, 1, 3]
        (shapeCast S2x2048x16x64 (W2 m ρ c (Proc.devRef .tc main_v5_1)) shapeCasts_S4096x1024_S2x2048x16x64)
        transposes_S2x2048x16x64_S2x16x2048x64_0_2_1_3) shapeCasts_S2x16x2048x64_S32x2048x64 := by
  show StableHlo.after hostOps1 _ (Proc.devRef .tc main_v17) = _
  after_results
  rfl

theorem V3_v18 : W3 m ρ c (Proc.devRef .tc main_v18)
    = shapeCast S32x2048x64 (transpose S2x16x2048x64 [0, 2, 1, 3]
        (shapeCast S2x2048x16x64 (W2 m ρ c (Proc.devRef .tc main_v5_2)) shapeCasts_S4096x1024_S2x2048x16x64)
        transposes_S2x2048x16x64_S2x16x2048x64_0_2_1_3) shapeCasts_S2x16x2048x64_S32x2048x64 := by
  show StableHlo.after hostOps1 _ (Proc.devRef .tc main_v18) = _
  after_results
  rfl

theorem V3_v15 : W3 m ρ c (Proc.devRef .tc main_v15)
    = shapeCast S32x2048x64 (W2 m ρ c (Proc.devRef .tc main_arg1)) shapeCasts_S2x16x2048x64_S32x2048x64 := by
  show StableHlo.after hostOps1 _ (Proc.devRef .tc main_v15) = _
  after_results
  rfl

theorem V3_v16 : W3 m ρ c (Proc.devRef .tc main_v16)
    = shapeCast S32x2048x64 (W2 m ρ c (Proc.devRef .tc main_arg2)) shapeCasts_S2x16x2048x64_S32x2048x64 := by
  show StableHlo.after hostOps1 _ (Proc.devRef .tc main_v16) = _
  after_results
  rfl

theorem V3_v12 : W3 m ρ c (Proc.devRef .tc main_v12)
    = concatenate S2x16x4096x64 2 [⟨S2x16x2048x64, W2 m ρ c (Proc.devRef .tc main_arg1)⟩,
        ⟨S2x16x2048x64, (transpose S2x16x2048x64 [0, 2, 1, 3]
        (shapeCast S2x2048x16x64 (W2 m ρ c (Proc.devRef .tc main_v5_1)) shapeCasts_S4096x1024_S2x2048x16x64)
        transposes_S2x2048x16x64_S2x16x2048x64_0_2_1_3)⟩] concatenates_S2x16x2048x64_S2x16x2048x64_S2x16x4096x64_d2 := by
  show StableHlo.after hostOps1 _ (Proc.devRef .tc main_v12) = _
  after_results
  rfl

theorem V3_v13 : W3 m ρ c (Proc.devRef .tc main_v13)
    = concatenate S2x16x4096x64 2 [⟨S2x16x2048x64, W2 m ρ c (Proc.devRef .tc main_arg2)⟩,
        ⟨S2x16x2048x64, (transpose S2x16x2048x64 [0, 2, 1, 3]
        (shapeCast S2x2048x16x64 (W2 m ρ c (Proc.devRef .tc main_v5_2)) shapeCasts_S4096x1024_S2x2048x16x64)
        transposes_S2x2048x16x64_S2x16x2048x64_0_2_1_3)⟩] concatenates_S2x16x2048x64_S2x16x2048x64_S2x16x4096x64_d2 := by
  show StableHlo.after hostOps1 _ (Proc.devRef .tc main_v13) = _
  after_results
  rfl

theorem W3_arg6 : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The attention region -/

theorem W4_v19 (hp : R1.PayloadSpec) : W4 m ρ c (Proc.devRef .tc main_v19)
    = G1 (W3 m ρ c (Proc.devRef .tc main_v14)) (W3 m ρ c (Proc.devRef .tc main_v15)) (W3 m ρ c (Proc.devRef .tc main_v16))
        (W3 m ρ c (Proc.devRef .tc main_v17)) (W3 m ρ c (Proc.devRef .tc main_v18)) :=
  (W4_arr m ρ c 5).trans (R1.final5 (V3 m ρ) hp c)

theorem W4_v12 : W4 m ρ c (Proc.devRef .tc main_v12) = W3 m ρ c (Proc.devRef .tc main_v12) :=
  W4_of_ne m ρ c main_v12 (by decide)
theorem W4_v13 : W4 m ρ c (Proc.devRef .tc main_v13) = W3 m ρ c (Proc.devRef .tc main_v13) :=
  W4_of_ne m ρ c main_v13 (by decide)
theorem W4_arg6 : W4 m ρ c (Proc.devRef .tc main_arg6) = W3 m ρ c (Proc.devRef .tc main_arg6) :=
  W4_of_ne m ρ c main_arg6 (by decide)

/-! ## Between the second and the third region: heads merged back, the last weight -/

theorem V5_v23 : W5 m ρ c (Proc.devRef .tc main_v23)
    = shapeCast S4096x1024
        (shapeCast S2x2048x1024
          (transpose S2x2048x16x64 [0, 2, 1, 3]
            (shapeCast S2x16x2048x64 (W4 m ρ c (Proc.devRef .tc main_v19)) shapeCasts_S32x2048x64_S2x16x2048x64)
            transposes_S2x16x2048x64_S2x2048x16x64_0_2_1_3)
          shapeCasts_S2x2048x16x64_S2x2048x1024)
        shapeCasts_S2x2048x1024_S4096x1024 := by
  show StableHlo.after hostOps2 _ (Proc.devRef .tc main_v23) = _
  after_results
  rfl

theorem V5_v24 : W5 m ρ c (Proc.devRef .tc main_v24)
    = truncf (F := Ideal) .bf16 (W4 m ρ c (Proc.devRef .tc main_arg6)) bitsLt_bf16_f32 := by
  show StableHlo.after hostOps2 _ (Proc.devRef .tc main_v24) = _
  after_results

theorem W5_v12 : W5 m ρ c (Proc.devRef .tc main_v12) = W4 m ρ c (Proc.devRef .tc main_v12) :=
  StableHlo.after_of_forall_not_mem (b := Proc.devRef .tc main_v12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W5_v13 : W5 m ρ c (Proc.devRef .tc main_v13) = W4 m ρ c (Proc.devRef .tc main_v13) :=
  StableHlo.after_of_forall_not_mem (b := Proc.devRef .tc main_v13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The last region and the last reshape -/

theorem W6_v25 : W6 m ρ c (Proc.devRef .tc main_v25)
    = matProd (W5 m ρ c (Proc.devRef .tc main_v23)) (W5 m ρ c (Proc.devRef .tc main_v24)) :=
  (W6_arr m ρ c 2).trans (R2.final2 (V5 m ρ) c)

theorem W6_v12 : W6 m ρ c (Proc.devRef .tc main_v12) = W5 m ρ c (Proc.devRef .tc main_v12) :=
  W6_of_ne m ρ c main_v12 (by decide)
theorem W6_v13 : W6 m ρ c (Proc.devRef .tc main_v13) = W5 m ρ c (Proc.devRef .tc main_v13) :=
  W6_of_ne m ρ c main_v13 (by decide)

theorem W7_v26 : W7 m ρ c (Proc.devRef .tc main_v26)
    = shapeCast S2x2048x1024 (W6 m ρ c (Proc.devRef .tc main_v25)) shapeCasts_S4096x1024_S2x2048x1024 := by
  show StableHlo.after hostOps3 _ (Proc.devRef .tc main_v26) = _
  after_results
  rfl

theorem W7_v12 : W7 m ρ c (Proc.devRef .tc main_v12) = W6 m ρ c (Proc.devRef .tc main_v12) :=
  StableHlo.after_of_forall_not_mem (b := Proc.devRef .tc main_v12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W7_v13 : W7 m ρ c (Proc.devRef .tc main_v13) = W6 m ρ c (Proc.devRef .tc main_v13) :=
  StableHlo.after_of_forall_not_mem (b := Proc.devRef .tc main_v13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The three results -/

/-- The second result: the cached keys followed by the new keys. -/
theorem res_keys : W7 m ρ c (Proc.devRef .tc main_v12) = joined (m ((c : Thread nD τ).loc main_arg1)) (heads (proj (m ((c : Thread nD τ).loc main_arg0)) (m ((c : Thread nD τ).loc main_arg4)))) := by
  rw [W7_v12, W6_v12, W5_v12, W4_v12, V3_v12, W2_arg1, W2_v5_1, V1_v1, V1_v3]
  rfl

/-- The third result: the cached values followed by the new values. -/
theorem res_vals : W7 m ρ c (Proc.devRef .tc main_v13) = joined (m ((c : Thread nD τ).loc main_arg2)) (heads (proj (m ((c : Thread nD τ).loc main_arg0)) (m ((c : Thread nD τ).loc main_arg5)))) := by
  rw [W7_v13, W6_v13, W5_v13, W4_v13, V3_v13, W2_arg2, W2_v5_2, V1_v1, V1_v4]
  rfl

/-- The first result. -/
theorem res_out (hp : R1.PayloadSpec) : W7 m ρ c (Proc.devRef .tc main_v26)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W7_v26, W6_v25, V5_v23, V5_v24, W4_v19 m ρ c hp, V3_v14, V3_v15, V3_v16, V3_v17, V3_v18, W2_arg1, W2_arg2,
    W2_v5_0, W2_v5_1, W2_v5_2, V1_v1, V1_v2, V1_v3, V1_v4, W4_arg6, W3_arg6, W2_arg6]
  rfl

end Cert.KernelIdeal.KV

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.Region1Pay.lean ====
/-
  The attention kernel body's stored value read at an index. For a query row p of the block and an output column
  j, the value the body stores at (0, p, j) is the attention output of the first reading: the query row scaled by a
  constant before the dot products with the keys, the row maximum and the normalising sum taken half by half over
  the two key blocks, the values weighted half by half, and one division at the end.
-/
import proofs.«124896_j33852932227543_2_alg».proof.Proof.Gen.KernelIdeal.Skeleton
import proofs.«124896_j33852932227543_2_alg».proof.Proof.AttnSpec
import proofs.«124896_j33852932227543_2_alg».proof.Proof.AttnCat
import proofs.«124896_j33852932227543_2_alg».proof.Proof.LibBlockReads
import proofs.«124896_j33852932227543_2_alg».proof.Proof.LibRowReductions
import Idealize.ShloMosaic.Lib.ValueIdx
import Idealize.ShloMosaic.Lib.ValueLayout
import Idealize.ShloMosaic.Lib.Pipeline.Value

open scoped BigOperators

noncomputable section

namespace Cert.KernelIdeal.R1Pay

open Cert.KernelIdeal Cert.KernelIdeal.Gen Idealize.ShloMosaic Idealize.ShloMosaic.ValueIdx Cert.Attn

/-! ## A row reduction viewed as a column -/

section Cols
variable {a b : Nat}

/-- The maximum along each row from −∞, viewed as an a×1 column, is at (p, 0) the fold of max from −∞ over the
    entries of row p. -/
theorem rowmax_col_apply (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction (F := Ideal) .maximumf [1] ⟨1, ![a]⟩ src 0xFF800000#32 h hφ hacc) hc (ix2 p 0)
      = (Finset.univ : Finset (Fin b)).fold max (⊥ : EReal) (fun k => src (ix2 p k)) :=
  (Cert.Lib.RowReductions.shapeCast_col_apply _ hc p).trans
    ((Cert.Lib.RowReductions.rowmax_apply src _ h hφ hacc p).trans
      (congrArg (fun t => (Finset.univ : Finset (Fin b)).fold max t (fun k => src (ix2 p k)))
        Cert.Lib.RowReductions.ofBits_neg_inf_f32))

/-- The sum along each row, viewed as an a×1 column, is at (p, 0) the sum of the entries of row p. -/
theorem rowsum_col_apply (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (p : Fin a) :
    shapeCast ⟨2, ![a, 1]⟩ (multiReduction (F := Ideal) .add [1] ⟨1, ![a]⟩ src 0x00000000#32 h hφ hacc) hc (ix2 p 0)
      = ∑ k : Fin b, src (ix2 p k) :=
  (Cert.Lib.RowReductions.shapeCast_col_apply _ hc p).trans
    (Cert.Lib.RowReductions.rowsum_apply src _ h hφ hacc p)

end Cols

/-! ## The body's values read at an index

Throughout, q is a row of the query block, the keys are the cached keys followed by the new keys, the values are
one column of the cached values followed by the same column of the new values, and the scale is the
single-precision word 3E000000. -/

section Payloads

/-- The scaled query block at (p, d) is the query entry (0, p, d) times the scale. -/
theorem pay2_apply (x0 : Vec Ideal S1x128x64 .bf16) (p : Fin 128) (d : Fin 64) :
    k1_pay2 x0 (ix2 p d) = x0 (ix3 0 p d) * Ideal.ofBits .f32 0x3E000000#32 :=
  congrArg (fun t : EReal => t * Ideal.ofBits .f32 0x3E000000#32)
    (shapeCast_1ab_ab_apply x0 shapeCasts_S1x128x64_S128x64 p d)

/-- A key or value block with its unit axis dropped reads the block at (0, k, d). -/
theorem pay3_apply (x : Vec Ideal S1x2048x64 .f32) (k : Fin 2048) (d : Fin 64) :
    k1_pay3 x (ix2 k d) = x (ix3 0 k d) :=
  shapeCast_1ab_ab_apply x shapeCasts_S1x2048x64_S2048x64 k d

theorem pay4_apply (x : Vec Ideal S1x2048x64 .f32) (k : Fin 2048) (d : Fin 64) :
    k1_pay4 x (ix2 k d) = x (ix3 0 k d) :=
  shapeCast_1ab_ab_apply x shapeCasts_S1x2048x64_S2048x64 k d

/-- The product of the scaled query block with the transpose of a key block is at (p, k) the sum over d of the
    scaled query entry (p, d) times the key entry (k, d). -/
theorem pay5_apply (x0 : Vec Ideal S1x128x64 .bf16) (x : Vec Ideal S1x2048x64 .f32) (p : Fin 128) (k : Fin 2048) :
    k1_pay5 x0 x (ix2 p k) = ∑ d : Fin 64, (x0 (ix3 0 p d) * Ideal.ofBits .f32 0x3E000000#32) * x (ix3 0 k d) :=
  (Cert.Lib.BlockReads.matmul_zero_cols_apply dot_S128x64_S2048x64_S128x2048_1_1_0_0_n_n rfl rfl rfl rfl rfl rfl none
      (k1_pay2 x0) (truncf .bf16 (shapeCast S2048x64 x shapeCasts_S1x2048x64_S2048x64) bitsLt_bf16_f32) p k).trans
    (Finset.sum_congr rfl fun d _ => congrArg₂ (fun s t : EReal => s * t) (pay2_apply x0 p d)
      (shapeCast_1ab_ab_apply x shapeCasts_S1x2048x64_S2048x64 k d))

theorem pay6_apply (x0 : Vec Ideal S1x128x64 .bf16) (x : Vec Ideal S1x2048x64 .f32) (p : Fin 128) (k : Fin 2048) :
    k1_pay6 x0 x (ix2 p k) = ∑ d : Fin 64, (x0 (ix3 0 p d) * Ideal.ofBits .f32 0x3E000000#32) * x (ix3 0 k d) :=
  (Cert.Lib.BlockReads.matmul_zero_cols_apply dot_S128x64_S2048x64_S128x2048_1_1_0_0_n_n rfl rfl rfl rfl rfl rfl none
      (k1_pay2 x0) (truncf .bf16 (shapeCast S2048x64 x shapeCasts_S1x2048x64_S2048x64) bitsLt_bf16_f32) p k).trans
    (Finset.sum_congr rfl fun d _ => congrArg₂ (fun s t : EReal => s * t) (pay2_apply x0 p d)
      (shapeCast_1ab_ab_apply x shapeCasts_S1x2048x64_S2048x64 k d))

end Payloads

/-! ## One query row against the two key blocks -/

section Row
variable (x0 : Vec Ideal S1x128x64 .bf16) (x1 x3 : Vec Ideal S1x2048x64 .f32) (p : Fin 128)

/-- Row p of the query block. -/
local notation "qR" => (fun d : Fin 64 => x0 (ix3 0 p d))
/-- The cached keys followed by the new keys. -/
local notation "kF" => (fun (k : Fin 4096) (d : Fin 64) => cat2 (fun k' => x1 (ix3 0 k' d)) (fun k' => x3 (ix3 0 k' d)) k)
/-- The scale. -/
local notation "cS" => Ideal.ofBits FTy.f32 0x3E000000#32

/-- The product with the cached keys is at (p, k) the score of key k of the first half. -/
theorem score_lo (k : Fin 2048) : k1_pay5 x0 x1 (ix2 p k) = kScore qR kF cS (lo k) :=
  (pay5_apply x0 x1 p k).trans
    (Finset.sum_congr rfl fun d _ => congrArg (fun t : EReal => (x0 (ix3 0 p d) * cS) * t)
      (cat2_lo (fun k' => x1 (ix3 0 k' d)) (fun k' => x3 (ix3 0 k' d)) k).symm)

/-- The product with the new keys is at (p, k) the score of key k of the second half. -/
theorem score_hi (k : Fin 2048) : k1_pay6 x0 x3 (ix2 p k) = kScore qR kF cS (hi k) :=
  (pay6_apply x0 x3 p k).trans
    (Finset.sum_congr rfl fun d _ => congrArg (fun t : EReal => (x0 (ix3 0 p d) * cS) * t)
      (cat2_hi (fun k' => x1 (ix3 0 k' d)) (fun k' => x3 (ix3 0 k' d)) k).symm)

/-- The joined row maximum at (p, 0) is the row maximum of the first reading. -/
theorem pay7_apply : k1_pay7 x0 x1 x3 (ix2 p 0) = kMax qR kF cS :=
  (congrArg₂ (fun s t : EReal => max s t)
    (rowmax_col_apply (k1_pay5 x0 x1) reduces_S128x2048_S128 (.inl rfl) rfl shapeCasts_S128_S128x1 p)
    (rowmax_col_apply (k1_pay6 x0 x3) reduces_S128x2048_S128 (.inl rfl) rfl shapeCasts_S128_S128x1 p)).trans
  (congrArg₂ (fun s t : EReal => max s t)
    (congrArg (fun f : Fin 2048 → EReal => (Finset.univ : Finset (Fin 2048)).fold max (⊥ : EReal) f)
      (funext fun k => score_lo x0 x1 x3 p k))
    (congrArg (fun f : Fin 2048 → EReal => (Finset.univ : Finset (Fin 2048)).fold max (⊥ : EReal) f)
      (funext fun k => score_hi x0 x1 x3 p k)))

/-- The exponential of a first-half score less the row maximum is that key's weight. -/
theorem pay8_apply (k : Fin 2048) : k1_pay8 x0 x1 x3 (ix2 p k) = kWeight qR kF cS (lo k) :=
  congrArg Ideal.exp (congrArg₂ (fun s t : EReal => s - t) (score_lo x0 x1 x3 p k)
    ((Cert.Lib.RowReductions.broadcast_col_apply (k1_pay7 x0 x1 x3) broadcasts_S128x1_S128x2048 p k).trans
      (pay7_apply x0 x1 x3 p)))

/-- The exponential of a second-half score less the row maximum is that key's weight. -/
theorem pay9_apply (k : Fin 2048) : k1_pay9 x0 x1 x3 (ix2 p k) = kWeight qR kF cS (hi k) :=
  congrArg Ideal.exp (congrArg₂ (fun s t : EReal => s - t) (score_hi x0 x1 x3 p k)
    ((Cert.Lib.RowReductions.broadcast_col_apply (k1_pay7 x0 x1 x3) broadcasts_S128x1_S128x2048 p k).trans
      (pay7_apply x0 x1 x3 p)))

/-- The normalising sum at (p, 0) is the sum of the weights of the first half plus that of the second half. -/
theorem pay10_apply : k1_pay10 x0 x1 x3 (ix2 p 0)
    = (∑ k : Fin 2048, kWeight qR kF cS (lo k)) + ∑ k : Fin 2048, kWeight qR kF cS (hi k) :=
  congrArg₂ (fun s t : EReal => s + t)
    ((rowsum_col_apply (k1_pay8 x0 x1 x3) reduces_S128x2048_S128 (.inl rfl) rfl shapeCasts_S128_S128x1 p).trans
      (Finset.sum_congr rfl fun k _ => pay8_apply x0 x1 x3 p k))
    ((rowsum_col_apply (k1_pay9 x0 x1 x3) reduces_S128x2048_S128 (.inl rfl) rfl shapeCasts_S128_S128x1 p).trans
      (Finset.sum_congr rfl fun k _ => pay9_apply x0 x1 x3 p k))

end Row

/-! ## The stored value -/

/-- The stored block at (0, p, j): the two weighted sums of values, added, over the normalising sum at (p, 0). -/
theorem pay1_apply (v11 v17 : FVec Ideal S2048x64 .bf16) (v27 v30 : FVec Ideal S128x2048 .f32)
    (v35 : FVec Ideal S128x1 .f32) (p : Fin 128) (j : Fin 64) :
    k1_pay1 v11 v17 v27 v30 v35 (ix3 0 p j)
      = Ideal.div ((∑ k : Fin 2048, v27 (ix2 p k) * v11 (ix2 k j)) + ∑ k : Fin 2048, v30 (ix2 p k) * v17 (ix2 k j))
          (v35 (ix2 p 0)) := by
  unfold k1_pay1
  refine Eq.trans (shapeCast_ab_1ab_apply _ shapeCasts_S128x64_S1x128x64 0 p j) ?_
  exact congrArg₂ Ideal.div
    (congrArg₂ (fun s t : EReal => s + t)
      (Cert.Lib.BlockReads.matmul_zero_rows_apply dot_S128x2048_S2048x64_S128x64_1_0_0_1_n_n rfl rfl rfl rfl rfl rfl none
        (truncf .bf16 v27 bitsLt_bf16_f32) v11 p j)
      (Cert.Lib.BlockReads.matmul_zero_rows_apply dot_S128x2048_S2048x64_S128x64_1_0_0_1_n_n rfl rfl rfl rfl rfl rfl none
        (truncf .bf16 v30 bitsLt_bf16_f32) v17 p j))
    (Cert.Lib.RowReductions.broadcast_col_apply v35 broadcasts_S128x1_S128x64 p j)

/-- The value the body stores at (0, p, j) is the attention output of the first reading for query row p and value
    column j, over the cached keys and values followed by the new ones. -/
theorem attn_payload (x0 : Vec Ideal S1x128x64 .bf16) (x1 x2 x3 x4 : Vec Ideal S1x2048x64 .f32) (p : Fin 128) (j : Fin 64) :
    k1_pay1 (k1_pay3 x2) (k1_pay4 x4) (k1_pay8 x0 x1 x3) (k1_pay9 x0 x1 x3) (k1_pay10 x0 x1 x3) (ix3 0 p j)
      = kAttn (fun d => x0 (ix3 0 p d))
          (fun k d => cat2 (fun k' => x1 (ix3 0 k' d)) (fun k' => x3 (ix3 0 k' d)) k)
          (fun k => cat2 (fun k' => x2 (ix3 0 k' j)) (fun k' => x4 (ix3 0 k' j)) k)
          (Ideal.ofBits .f32 0x3E000000#32) :=
  (pay1_apply (k1_pay3 x2) (k1_pay4 x4) (k1_pay8 x0 x1 x3) (k1_pay9 x0 x1 x3) (k1_pay10 x0 x1 x3) p j).trans
    (congrArg₂ Ideal.div
      (congrArg₂ (fun s t : EReal => s + t)
        (Finset.sum_congr rfl fun k _ => congrArg₂ (fun s t : EReal => s * t) (pay8_apply x0 x1 x3 p k)
          ((pay3_apply x2 k j).trans
            (cat2_lo (fun k' => x2 (ix3 0 k' j)) (fun k' => x4 (ix3 0 k' j)) k).symm))
        (Finset.sum_congr rfl fun k _ => congrArg₂ (fun s t : EReal => s * t) (pay9_apply x0 x1 x3 p k)
          ((pay4_apply x4 k j).trans
            (cat2_hi (fun k' => x2 (ix3 0 k' j)) (fun k' => x4 (ix3 0 k' j)) k).symm)))
      (pay10_apply x0 x1 x3 p))

end Cert.KernelIdeal.R1Pay

end
-- ==== Proof.ConcatRead.lean ====
/-
  A join of two [2, 16, 2048, 64] arrays along axis 2 into a [2, 16, 4096, 64] array, read at an index: a position
  in the first half of the joined axis reads the first array, a position in the second half reads the second array,
  both at the same remaining coordinates. Nothing here mentions a program.
-/
import Idealize.ShloMosaic.Lib.Pipeline.Value
import Idealize.ShloMosaic.Lib.ValueIdx
import proofs.«124896_j33852932227543_2_alg».proof.Proof.AttnSpec

namespace Cert.ConcatRead

open Idealize.ShloMosaic Idealize.ShloMosaic.ValueIdx

/-- At position k of the first half of the joined axis the join reads the first array at (b, h, k, j). -/
theorem concat_lo {α : Type} (a b' : (⟨4, ![2, 16, 2048, 64]⟩ : Shape).Idx → α)
    (hc : Shape.Concatenates [(⟨4, ![2, 16, 2048, 64]⟩ : Shape), ⟨4, ![2, 16, 2048, 64]⟩] ⟨4, ![2, 16, 4096, 64]⟩ 2)
    (b : Fin 2) (h : Fin 16) (k : Fin 2048) (j : Fin 64) :
    concatenate ⟨4, ![2, 16, 4096, 64]⟩ 2 [⟨⟨4, ![2, 16, 2048, 64]⟩, a⟩, ⟨⟨4, ![2, 16, 2048, 64]⟩, b'⟩] hc
        (ix4 b h (Cert.Attn.lo k) j) = a (ix4 b h k j) :=
  concatenate_pair_apply_left 2 a b' hc _ rfl _ fun ax => by
    match ax with
    | ⟨0, _⟩ => rfl
    | ⟨1, _⟩ => rfl
    | ⟨2, _⟩ => rfl
    | ⟨3, _⟩ => rfl

/-- At position 2048 + k of the joined axis the join reads the second array at (b, h, k, j). -/
theorem concat_hi {α : Type} (a b' : (⟨4, ![2, 16, 2048, 64]⟩ : Shape).Idx → α)
    (hc : Shape.Concatenates [(⟨4, ![2, 16, 2048, 64]⟩ : Shape), ⟨4, ![2, 16, 2048, 64]⟩] ⟨4, ![2, 16, 4096, 64]⟩ 2)
    (b : Fin 2) (h : Fin 16) (k : Fin 2048) (j : Fin 64) :
    concatenate ⟨4, ![2, 16, 4096, 64]⟩ 2 [⟨⟨4, ![2, 16, 2048, 64]⟩, a⟩, ⟨⟨4, ![2, 16, 2048, 64]⟩, b'⟩] hc
        (ix4 b h (Cert.Attn.hi k) j) = b' (ix4 b h k j) :=
  concatenate_pair_apply_right 2 a b' hc _ rfl rfl _
    (fun ax hax => by
      match ax, hax with
      | ⟨0, _⟩, _ => rfl
      | ⟨1, _⟩, _ => rfl
      | ⟨2, _⟩, hax => exact absurd rfl hax
      | ⟨3, _⟩, _ => rfl)
    (by show k.val + 2048 = 2048 + k.val; omega)

end Cert.ConcatRead
-- ==== Proof.RefCtx.lean ====
/-
  The reference's attention stage read at an index. For a batch b, a head h, a query position s and an output
  column j, the value the stage writes at (b, h, s, j) is the attention output of the second reading: every dot
  product of the query row with a key row divided by a constant, the row maximum over all 4096 keys from −∞ (joined
  once more with −∞), the exponentials of the differences, their total from zero, every weight divided by the total,
  and the weighted sum of one column of the values.
-/
import proofs.«124896_j33852932227543_2_alg».proof.Proof.Gen.ReferenceIdeal.Read
import proofs.«124896_j33852932227543_2_alg».proof.Proof.AttnSpec
import proofs.«124896_j33852932227543_2_alg».proof.Proof.LibRowReductions
import proofs.«124896_j33852932227543_2_alg».proof.Proof.ConcatRead
import Idealize.ShloMosaic.PureOps.Reduce
import Idealize.ShloMosaic.PureOps.Ideal.Laws
import Idealize.ShloMosaic.Lib.ValueIdx

open scoped BigOperators

noncomputable section

namespace Cert.RefBridge

open Idealize.ShloMosaic Idealize.ShloMosaic.ValueIdx Cert.ReferenceIdeal Cert.ReferenceIdeal.Gen Cert.ReferenceIdeal.Read

/-! ## A maximum along the last axis of a rank-4 block -/

section Rows4
variable {n0 n1 n2 n3 : Nat}

/-- The index (b, h, s) with position k put back on the last axis is (b, h, s, k). -/
theorem lift_last4 (h : (⟨4, ![n0, n1, n2, n3]⟩ : Shape).Reduces [3] ⟨3, ![n0, n1, n2]⟩) (b : Fin n0) (hd : Fin n1)
    (s : Fin n2) (k : Fin ((⟨4, ![n0, n1, n2, n3]⟩ : Shape).size 3)) :
    h.lift (ix3 b hd s) k = ix4 b hd s (⟨k.val, k.isLt⟩ : Fin n3) := by
  funext ax; apply Fin.ext
  match ax with
  | ⟨0, _⟩ => rfl
  | ⟨1, _⟩ => rfl
  | ⟨2, _⟩ => rfl
  | ⟨3, _⟩ => rfl

/-- A one-operand reduce with a maximum body along the last axis of a rank-4 block is at (b, h, s) the fold of max,
    from the initial value's element, over the entries (b, h, s, k). -/
theorem host_lastmax4_apply {u : Shape} (x : (⟨4, ![n0, n1, n2, n3]⟩ : Shape).Idx → Ideal .f32)
    (init : u.Idx → Ideal .f32) (h' : (⟨4, ![n0, n1, n2, n3]⟩ : Shape).ReducesTo [3] ⟨3, ![n0, n1, n2]⟩)
    (hu : 0 < u.numel) (b : Fin n0) (hd : Fin n1) (s : Fin n2) :
    Host.reduce (FloatOps.maximumf (F := Ideal) (φ := .f32)) x init h' hu (ix3 b hd s)
      = (Finset.univ : Finset (Fin n3)).fold max (init (Shape.Idx.first hu)) (fun k => x (ix4 b hd s k)) := by
  have h : (⟨4, ![n0, n1, n2, n3]⟩ : Shape).Reduces [3] ⟨3, ![n0, n1, n2]⟩ := ⟨h'.1, Nat.succ_pos 2, h'.2⟩
  rw [Host.reduce_eq_fold_single FloatOps.maximumf x init h' h hu]
  have hf : (x ∘ h.lift (ix3 b hd s)) = fun k : Fin n3 => x (ix4 b hd s k) :=
    funext fun k => congrArg x (lift_last4 h b hd s k)
  exact congrArg (fun f => Finset.fold max (init (Shape.Idx.first hu)) f (Finset.univ : Finset (Fin n3))) hf

end Rows4

/-! ## The stage, one operation at a time, at an index -/

section Stage
variable (x0 : (⟨S2x2048x1024, .f32⟩ : BufTy).Contents (Elt Ideal))
  (x1 x2 : (⟨S2x16x2048x64, .f32⟩ : BufTy).Contents (Elt Ideal))
  (x3 x4 x5 : (⟨S1024x1024, .f32⟩ : BufTy).Contents (Elt Ideal))
  (b : Fin 2) (h : Fin 16) (s : Fin 2048)

/-- The query row of (b, h, s). -/
abbrev qRow : Fin 64 → EReal := fun d => val_main_v2 x0 x3 (ix4 b h s d)
/-- The key table of (b, h). -/
abbrev kTab : Fin 4096 → Fin 64 → EReal := fun k d => val_main_v9 x0 x1 x4 (ix4 b h k d)
/-- The divisor: the square root of the constant 64. -/
abbrev c8 : EReal := Ideal.sqrt (Ideal.ofBits .f32 0x42800000#32)

/-- The scaled dot products: at (b, h, s, k) the score of key k. -/
theorem v14_at (k : Fin 4096) :
    val_main_v14 x0 x1 x3 x4 (ix4 b h s k) = Cert.Attn.rScore (qRow x0 x3 b h s) (kTab x0 x1 x4 b h) c8 k := by
  rw [val_main_v14_apply, val_main_v11_apply, val_main_v13_apply, val_main_v12_apply, val_main_cst_apply]
  have el : ∀ d : Fin 64, lidx_main_v11 (ix4 b h s k) d = ix4 b h s d := fun d => funext fun a => Fin.ext (by
    match a with | ⟨0, _⟩ => rfl | ⟨1, _⟩ => rfl | ⟨2, _⟩ => rfl | ⟨3, _⟩ => rfl)
  have er : ∀ d : Fin 64, ridx_main_v11 (ix4 b h s k) d = ix4 b h k d := fun d => funext fun a => Fin.ext (by
    match a with | ⟨0, _⟩ => rfl | ⟨1, _⟩ => rfl | ⟨2, _⟩ => rfl | ⟨3, _⟩ => rfl)
  simp only [el, er]
  rfl

/-- The row maximum from −∞ at (b, h, s). -/
theorem v15_at :
    val_main_v15 x0 x1 x3 x4 (ix3 b h s)
      = (Finset.univ : Finset (Fin 4096)).fold max (⊥ : EReal)
          (fun k => Cert.Attn.rScore (qRow x0 x3 b h s) (kTab x0 x1 x4 b h) c8 k) := by
  unfold val_main_v15
  refine (host_lastmax4_apply _ _ reducesTo_S2x16x2048x4096_S2x16x2048_d3 h_S_ b h s).trans ?_
  have hi : val_main_cst_0 (F := Ideal) (Shape.Idx.first h_S_) = (⊥ : EReal) := by
    rw [val_main_cst_0_apply]
    exact Cert.Lib.RowReductions.ofBits_neg_inf_f32
  rw [hi]
  exact congrArg (fun f => Finset.fold max (⊥ : EReal) f (Finset.univ : Finset (Fin 4096)))
    (funext fun k => v14_at x0 x1 x3 x4 b h s k)

/-- The row maximum joined once more with −∞, at (b, h, s). -/
theorem v17_at :
    val_main_v17 x0 x1 x3 x4 (ix3 b h s) = Cert.Attn.rMax (qRow x0 x3 b h s) (kTab x0 x1 x4 b h) c8 := by
  rw [val_main_v17_apply, val_main_v16_apply, val_main_cst_1_apply, v15_at]
  show max (Ideal.ofBits .f32 0xFF800000#32) _ = _
  rw [Cert.Lib.RowReductions.ofBits_neg_inf_f32]
  rfl

/-- The row maximum spread along the row. -/
theorem v19_at (k : Fin 4096) :
    val_main_v19 x0 x1 x3 x4 (ix4 b h s k) = Cert.Attn.rMax (qRow x0 x3 b h s) (kTab x0 x1 x4 b h) c8 := by
  rw [val_main_v19_apply, val_main_v18_apply]
  have e : idx_main_v18 (idx_main_v19 (ix4 b h s k)) = ix3 b h s := funext fun a => Fin.ext (by
    match a with | ⟨0, _⟩ => rfl | ⟨1, _⟩ => rfl | ⟨2, _⟩ => rfl)
  rw [e]
  exact v17_at x0 x1 x3 x4 b h s

/-- The weights: at (b, h, s, k) the weight of key k. -/
theorem v21_at (k : Fin 4096) :
    val_main_v21 x0 x1 x3 x4 (ix4 b h s k) = Cert.Attn.rWeight (qRow x0 x3 b h s) (kTab x0 x1 x4 b h) c8 k := by
  rw [val_main_v21_apply, val_main_v20_apply, v14_at, v19_at]
  rfl

/-- The row's total from zero at (b, h, s). -/
theorem v22_at :
    val_main_v22 x0 x1 x3 x4 (ix3 b h s)
      = (0 : EReal) + ∑ k : Fin 4096, Cert.Attn.rWeight (qRow x0 x3 b h s) (kTab x0 x1 x4 b h) c8 k := by
  rw [val_main_v22_apply, val_main_cst_2_apply]
  have hz : FloatOps.ofBits (F := Ideal) .f32 0x00000000#32 = (0 : EReal) := Ideal.ofBits_zero_f32
  rw [hz]
  refine congrArg ((0 : EReal) + ·) (Finset.sum_congr rfl fun k _ => ?_)
  have e : idx_main_v22 (ix3 b h s) k = ix4 b h s k := funext fun a => Fin.ext (by
    match a with | ⟨0, _⟩ => rfl | ⟨1, _⟩ => rfl | ⟨2, _⟩ => rfl | ⟨3, _⟩ => rfl)
  rw [e]
  exact v21_at x0 x1 x3 x4 b h s k

/-- The row's total spread along the row. -/
theorem v24_at (k : Fin 4096) :
    val_main_v24 x0 x1 x3 x4 (ix4 b h s k)
      = (0 : EReal) + ∑ k' : Fin 4096, Cert.Attn.rWeight (qRow x0 x3 b h s) (kTab x0 x1 x4 b h) c8 k' := by
  rw [val_main_v24_apply, val_main_v23_apply]
  have e : idx_main_v23 (idx_main_v24 (ix4 b h s k)) = ix3 b h s := funext fun a => Fin.ext (by
    match a with | ⟨0, _⟩ => rfl | ⟨1, _⟩ => rfl | ⟨2, _⟩ => rfl)
  rw [e]
  exact v22_at x0 x1 x3 x4 b h s

/-- The normalised weights. -/
theorem v25_at (k : Fin 4096) :
    val_main_v25 x0 x1 x3 x4 (ix4 b h s k)
      = Ideal.div (Cert.Attn.rWeight (qRow x0 x3 b h s) (kTab x0 x1 x4 b h) c8 k)
          ((0 : EReal) + ∑ k' : Fin 4096, Cert.Attn.rWeight (qRow x0 x3 b h s) (kTab x0 x1 x4 b h) c8 k') := by
  rw [val_main_v25_apply, v21_at, v24_at]
  rfl

end Stage

/-- The attention stage at (b, h, s, j) is the second reading's attention output for the query row of (b, h, s),
    the key table of (b, h) and column j of the value table of (b, h). -/
theorem ref_ctx (x0 : (⟨Cert.ReferenceIdeal.S2x2048x1024, .f32⟩ : BufTy).Contents (Elt Ideal))
    (x1 x2 : (⟨Cert.ReferenceIdeal.S2x16x2048x64, .f32⟩ : BufTy).Contents (Elt Ideal))
    (x3 x4 x5 : (⟨Cert.ReferenceIdeal.S1024x1024, .f32⟩ : BufTy).Contents (Elt Ideal))
    (b : Fin 2) (h : Fin 16) (s : Fin 2048) (j : Fin 64) :
    Cert.ReferenceIdeal.Read.val_main_v26 x0 x1 x2 x3 x4 x5 (ValueIdx.ix4 b h s j)
      = Cert.Attn.rAttn (fun d => Cert.ReferenceIdeal.Read.val_main_v2 x0 x3 (ValueIdx.ix4 b h s d))
          (fun k d => Cert.ReferenceIdeal.Read.val_main_v9 x0 x1 x4 (ValueIdx.ix4 b h k d))
          (fun k => Cert.ReferenceIdeal.Read.val_main_v10 x0 x2 x5 (ValueIdx.ix4 b h k j))
          (Ideal.sqrt (Ideal.ofBits .f32 0x42800000#32)) := by
  rw [val_main_v26_apply]
  unfold Cert.Attn.rAttn
  refine Finset.sum_congr rfl fun k _ => ?_
  have el : lidx_main_v26 (ix4 b h s j) k = ix4 b h s k := funext fun a => Fin.ext (by
    match a with | ⟨0, _⟩ => rfl | ⟨1, _⟩ => rfl | ⟨2, _⟩ => rfl | ⟨3, _⟩ => rfl)
  have er : ridx_main_v26 (ix4 b h s j) k = ix4 b h k j := funext fun a => Fin.ext (by
    match a with | ⟨0, _⟩ => rfl | ⟨1, _⟩ => rfl | ⟨2, _⟩ => rfl | ⟨3, _⟩ => rfl)
  rw [el, er, v25_at]

end Cert.RefBridge

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.AttnMath.lean ====
/-
  One attention row on the extended reals: when every entry of the query, the key table and the value column is a
  real, the reading that scales the query first, works half by half and divides once at the end agrees with the
  reading that divides every dot product, works over the whole row and normalises every weight before summing.
-/
import Mathlib.Algebra.BigOperators.Fin
import Mathlib.Data.EReal.Inv
import Mathlib.Data.Finset.Fold
import proofs.«124896_j33852932227543_2_alg».proof.Proof.AttnSpec
import proofs.«124896_j33852932227543_2_alg».proof.Proof.LibIdealSums

open scoped BigOperators

namespace Cert.Attn

open Idealize.ShloMosaic Cert.Lib.IdealSums

/-! ## The maximum of a row is the maximum of the maxima of its two halves -/

/-- Every position of the row lies in the first half or in the second. -/
theorem lo_or_hi (k : Fin 4096) : (∃ j, k = lo j) ∨ ∃ j, k = hi j := by
  by_cases h : k.val < 2048
  · exact Or.inl ⟨⟨k.val, h⟩, Fin.ext rfl⟩
  · refine Or.inr ⟨⟨k.val - 2048, by omega⟩, Fin.ext ?_⟩
    show k.val = 2048 + (k.val - 2048)
    omega

/-- A maximum from −∞ over the whole row is the larger of the maxima from −∞ over the two halves: each side is
    below the other by the universal property of the running maximum. No finiteness is needed. -/
theorem fold_max_split (f : Fin 4096 → EReal) :
    (Finset.univ : Finset (Fin 4096)).fold max (⊥ : EReal) f
      = max ((Finset.univ : Finset (Fin 2048)).fold max (⊥ : EReal) fun k => f (lo k))
            ((Finset.univ : Finset (Fin 2048)).fold max (⊥ : EReal) fun k => f (hi k)) := by
  apply le_antisymm
  · refine (Finset.fold_max_le _).2 ⟨bot_le, fun k _ => ?_⟩
    rcases lo_or_hi k with ⟨j, rfl⟩ | ⟨j, rfl⟩
    · exact le_trans ((Finset.le_fold_max _).2 (Or.inr ⟨j, Finset.mem_univ j, le_rfl⟩)) (le_max_left _ _)
    · exact le_trans ((Finset.le_fold_max _).2 (Or.inr ⟨j, Finset.mem_univ j, le_rfl⟩)) (le_max_right _ _)
  · refine max_le ?_ ?_
    · exact (Finset.fold_max_le _).2 ⟨bot_le, fun j _ =>
        (Finset.le_fold_max _).2 (Or.inr ⟨lo j, Finset.mem_univ _, le_rfl⟩)⟩
    · exact (Finset.fold_max_le _).2 ⟨bot_le, fun j _ =>
        (Finset.le_fold_max _).2 (Or.inr ⟨hi j, Finset.mem_univ _, le_rfl⟩)⟩

/-- The maximum from −∞ of a nonempty row of reals is a real: it is below +∞ because every entry is, and above
    −∞ because the first entry is. -/
theorem fold_max_isReal (s : Fin 4096 → ℝ) :
    IsReal ((Finset.univ : Finset (Fin 4096)).fold max (⊥ : EReal) fun k => (s k : EReal)) := by
  refine isReal_iff.2 ⟨ne_of_lt ?_, ne_of_gt ?_⟩
  · exact (Finset.fold_max_lt _).2 ⟨bot_lt_top, fun k _ => EReal.coe_lt_top (s k)⟩
  · exact (Finset.lt_fold_max _).2 (Or.inr ⟨(0 : Fin 4096), Finset.mem_univ _, EReal.bot_lt_coe (s 0)⟩)

/-! ## The scores -/

/-- With real entries and the factor 1/8, the score of the first reading is the real dot product over 8. -/
theorem kScore_coe (qr : Fin 64 → ℝ) (Kr : Fin 4096 → Fin 64 → ℝ) (k : Fin 4096) :
    kScore (fun d => (qr d : EReal)) (fun k d => (Kr k d : EReal)) ((1 / 8 : ℝ) : EReal) k
      = (((∑ d : Fin 64, qr d * Kr k d) / 8 : ℝ) : EReal) := by
  unfold kScore
  have h : ∀ d : Fin 64, ((qr d : EReal) * ((1 / 8 : ℝ) : EReal)) * (Kr k d : EReal)
      = ((qr d * (1 / 8) * Kr k d : ℝ) : EReal) := fun d => by
    rw [EReal.coe_mul, EReal.coe_mul]
  rw [Finset.sum_congr rfl fun d _ => h d, ← coe_sum, Finset.sum_div]
  refine congrArg _ (Finset.sum_congr rfl fun d _ => ?_)
  ring

/-- With real entries and the divisor 8, the score of the second reading is the same real. -/
theorem rScore_coe (qr : Fin 64 → ℝ) (Kr : Fin 4096 → Fin 64 → ℝ) (k : Fin 4096) :
    rScore (fun d => (qr d : EReal)) (fun k d => (Kr k d : EReal)) ((8 : ℝ) : EReal) k
      = (((∑ d : Fin 64, qr d * Kr k d) / 8 : ℝ) : EReal) := by
  unfold rScore
  rw [← coe_sum_mul, div_coe_coe _ (by norm_num : (8 : ℝ) ≠ 0)]

/-! ## The aggregation -/

/-- With real weights e and real values v over the row, the total of the weights positive: the weighted values
    summed half by half and divided once by the total taken half by half is the sum of the values weighted by the
    normalised weights, the total there taken from zero over the whole row. -/
theorem attn_core (e v : Fin 4096 → ℝ) (he : ∀ k, 0 < e k) :
    Ideal.div
        ((∑ k : Fin 2048, (e (lo k) : EReal) * (v (lo k) : EReal)) + ∑ k : Fin 2048, (e (hi k) : EReal) * (v (hi k) : EReal))
        ((∑ k : Fin 2048, (e (lo k) : EReal)) + ∑ k : Fin 2048, (e (hi k) : EReal))
      = ∑ k : Fin 4096, Ideal.div (e k : EReal) ((0 : EReal) + ∑ k' : Fin 4096, (e k' : EReal)) * (v k : EReal) := by
  have hnum : (∑ k : Fin 4096, (e k : EReal) * (v k : EReal))
      = (∑ k : Fin 2048, (e (lo k) : EReal) * (v (lo k) : EReal)) + ∑ k : Fin 2048, (e (hi k) : EReal) * (v (hi k) : EReal) :=
    sum_fin_split (m := 2048) (n := 2048) rfl fun k : Fin 4096 => (e k : EReal) * (v k : EReal)
  have hden : (∑ k : Fin 4096, (e k : EReal))
      = (∑ k : Fin 2048, (e (lo k) : EReal)) + ∑ k : Fin 2048, (e (hi k) : EReal) :=
    sum_fin_split (m := 2048) (n := 2048) rfl fun k : Fin 4096 => (e k : EReal)
  have hS : (∑ k : Fin 4096, e k) ≠ 0 :=
    (Finset.sum_pos (fun k _ => he k) Finset.univ_nonempty).ne'
  rw [← hnum, ← hden, zero_add, ← coe_sum_univ]
  exact (sum_div_mul_coe Finset.univ e v hS).symm

/-! ## The two readings agree -/

theorem kAttn_eq_rAttn (q : Fin 64 → EReal) (Kf : Fin 4096 → Fin 64 → EReal) (Vf : Fin 4096 → EReal) (cs c8 : EReal)
    (hq : ∀ d, Cert.Lib.IdealSums.IsReal (q d)) (hK : ∀ k d, Cert.Lib.IdealSums.IsReal (Kf k d))
    (hV : ∀ k, Cert.Lib.IdealSums.IsReal (Vf k))
    (hcs : cs = ((1 / 8 : ℝ) : EReal)) (hc8 : c8 = ((8 : ℝ) : EReal)) :
    kAttn q Kf Vf cs = rAttn q Kf Vf c8 := by
  choose qr hqr using hq
  choose Kr hKr using hK
  choose v hv using hV
  obtain rfl : q = fun d => (qr d : EReal) := funext hqr
  obtain rfl : Kf = fun k d => (Kr k d : EReal) := funext fun k => funext fun d => hKr k d
  obtain rfl : Vf = fun k => (v k : EReal) := funext hv
  subst hcs hc8
  -- the common real scores
  set s : Fin 4096 → ℝ := fun k => (∑ d : Fin 64, qr d * Kr k d) / 8 with hs
  have hk : ∀ k, kScore (fun d => (qr d : EReal)) (fun k d => (Kr k d : EReal)) ((1 / 8 : ℝ) : EReal) k = (s k : EReal) :=
    fun k => kScore_coe qr Kr k
  have hr : ∀ k, rScore (fun d => (qr d : EReal)) (fun k d => (Kr k d : EReal)) ((8 : ℝ) : EReal) k = (s k : EReal) :=
    fun k => rScore_coe qr Kr k
  -- the common real maximum
  obtain ⟨M, hM⟩ := fold_max_isReal s
  have hkM : kMax (fun d => (qr d : EReal)) (fun k d => (Kr k d : EReal)) ((1 / 8 : ℝ) : EReal) = (M : EReal) := by
    unfold kMax
    simp only [hk]
    rw [← fold_max_split fun k => (s k : EReal)]
    exact hM
  have hrM : rMax (fun d => (qr d : EReal)) (fun k d => (Kr k d : EReal)) ((8 : ℝ) : EReal) = (M : EReal) := by
    unfold rMax
    simp only [hr]
    rw [hM]
    exact max_eq_right bot_le
  -- the common real weights
  have hkW : ∀ k, kWeight (fun d => (qr d : EReal)) (fun k d => (Kr k d : EReal)) ((1 / 8 : ℝ) : EReal) k
      = ((Real.exp (s k - M) : ℝ) : EReal) := fun k => by
    unfold kWeight
    rw [hk, hkM, ← EReal.coe_sub, Ideal.exp_coe]
  have hrW : ∀ k, rWeight (fun d => (qr d : EReal)) (fun k d => (Kr k d : EReal)) ((8 : ℝ) : EReal) k
      = ((Real.exp (s k - M) : ℝ) : EReal) := fun k => by
    unfold rWeight
    rw [hr, hrM, ← EReal.coe_sub, Ideal.exp_coe]
  unfold kAttn rAttn
  simp only [hkW, hrW]
  exact attn_core (fun k => Real.exp (s k - M)) v fun k => Real.exp_pos _

end Cert.Attn
-- ==== Proof.Consts.lean ====
/-
  Two single-precision bit patterns as the extended reals they denote: the pattern 3E000000 is one eighth, and the
  square root of the pattern 42800000 (sixty-four) is eight. Nothing here mentions a program.
-/
import Idealize.ShloMosaic.PureOps.Ideal
import Mathlib.Analysis.SpecialFunctions.Pow.Real
import Mathlib.Analysis.SpecialFunctions.Sqrt

noncomputable section

namespace Cert.Consts

open Idealize.ShloMosaic

/-- The pattern 3E000000 denotes the real one eighth. -/
theorem ofBits_eighth : Ideal.ofBits .f32 0x3E000000#32 = ((1 / 8 : ℝ) : EReal) := by
  simp [Ideal.ofBits, Ideal.ieee, -EReal.coe_mul]; norm_num

/-- The pattern 42800000 denotes the real sixty-four. -/
theorem ofBits_sixtyfour : Ideal.ofBits .f32 0x42800000#32 = ((64 : ℝ) : EReal) := by
  simp [Ideal.ofBits, Ideal.ieee, -EReal.coe_mul]; norm_num

/-- The square root of sixty-four is eight. -/
theorem sqrt_sixtyfour : Ideal.sqrt (Ideal.ofBits .f32 0x42800000#32) = ((8 : ℝ) : EReal) := by
  rw [ofBits_sixtyfour, Ideal.sqrt_coe, if_neg (by norm_num)]
  have h : Real.sqrt 64 = 8 := by
    rw [show (64 : ℝ) = 8 ^ 2 by norm_num]
    exact Real.sqrt_sq (by norm_num)
  rw [h]

end Cert.Consts

end
-- ==== Proof.CtxBridge.lean ====
/-
  The attention taken slab by slab over the flattened [32, 2048, 64] views of the projections and of the cached keys
  and values, read back at [2, 16, 2048, 64], is the reference's attention stage when every input entry is a real.
  Slab b·16 + h of a flattened view is (b, h) of the array; the keys and values laid end to end agree position by
  position with the reference's joins along the sequence axis; every entry of a projection is a finite sum of
  products of reals, hence a real; and on real entries the two readings of one attention row agree.
-/
import proofs.«124896_j33852932227543_2_alg».proof.Proof.Gen.ReferenceIdeal.Read
import proofs.«124896_j33852932227543_2_alg».proof.Proof.RefCtx
import proofs.«124896_j33852932227543_2_alg».proof.Proof.AttnMath
import proofs.«124896_j33852932227543_2_alg».proof.Proof.AttnArrays
import proofs.«124896_j33852932227543_2_alg».proof.Proof.AttnCat
import proofs.«124896_j33852932227543_2_alg».proof.Proof.ConcatRead
import proofs.«124896_j33852932227543_2_alg».proof.Proof.Consts
import proofs.«124896_j33852932227543_2_alg».proof.Proof.LibIdealSums
import Idealize.ShloMosaic.Lib.ValueIdx
import Idealize.ShloMosaic.Lib.Pipeline.Value

open scoped BigOperators

noncomputable section

namespace Cert.CtxBridge

open Idealize.ShloMosaic Idealize.ShloMosaic.ValueIdx Cert.Lib.IdealSums Cert.Attn
  Cert.ReferenceIdeal Cert.ReferenceIdeal.Gen Cert.ReferenceIdeal.Read

/-! ## The flattened view -/

/-- Slab (b, h) of a [2, 16, ·, ·] array is slab b·16 + h of its flattened view. -/
def slab (b : Fin 2) (h : Fin 16) : Fin 32 := ⟨b.val * 16 + h.val, by have := b.isLt; have := h.isLt; omega⟩

/-- The flattened view at (b·16 + h, s, d) is the array at (b, h, s, d): the two indices have the same row-major
    position. -/
theorem flat_apply (M : (⟨4, ![2, 16, 2048, 64]⟩ : Shape).Idx → EReal)
    (h32 : (⟨4, ![2, 16, 2048, 64]⟩ : Shape).ShapeCasts ⟨3, ![32, 2048, 64]⟩)
    (b : Fin 2) (h : Fin 16) (s : Fin 2048) (d : Fin 64) :
    shapeCast ⟨3, ![32, 2048, 64]⟩ M h32 (ix3 (slab b h) s d) = M (ix4 b h s d) :=
  shapeCast_apply M h32 (ix3 (slab b h) s d) (ix4 b h s d) (by
    rewrite [Shape.rowMajor_val_four, Shape.rowMajor_val_three]
    show ((b.val * 16 + h.val) * 2048 + s.val) * 64 + d.val = ((b.val * 16 + h.val) * 2048 + s.val) * 64 + d.val
    rfl)

/-- A [32, 2048, 64] array read back at (b, h, s, d) is the array at (b·16 + h, s, d). -/
theorem unflat_apply (N : (⟨3, ![32, 2048, 64]⟩ : Shape).Idx → EReal)
    (h4 : (⟨3, ![32, 2048, 64]⟩ : Shape).ShapeCasts ⟨4, ![2, 16, 2048, 64]⟩)
    (b : Fin 2) (h : Fin 16) (s : Fin 2048) (d : Fin 64) :
    shapeCast ⟨4, ![2, 16, 2048, 64]⟩ N h4 (ix4 b h s d) = N (ix3 (slab b h) s d) :=
  shapeCast_apply N h4 (ix4 b h s d) (ix3 (slab b h) s d) (by
    rewrite [Shape.rowMajor_val_four, Shape.rowMajor_val_three]
    show ((b.val * 16 + h.val) * 2048 + s.val) * 64 + d.val = ((b.val * 16 + h.val) * 2048 + s.val) * 64 + d.val
    rfl)

/-! ## Every entry of a projection is a real -/

section Reals
variable (x0 : (⟨S2x2048x1024, .f32⟩ : BufTy).Contents (Elt Ideal))
  (w : (⟨S1024x1024, .f32⟩ : BufTy).Contents (Elt Ideal))
  (r0 : ∀ i, IsReal (x0 i)) (rw' : ∀ i, IsReal (w i))

include r0 rw'

/-- An entry of the query projection is a finite sum of products of an input entry and a weight entry, read
    through a reshape and a transpose, which only re-index. -/
theorem v2_real (i : S2x16x2048x64.Idx) : IsReal (val_main_v2 (F := Ideal) x0 w i) := by
  rw [val_main_v2_apply, val_main_v1_apply, val_main_v0_apply]
  exact IsReal.sum _ fun k _ => (r0 _).mul (rw' _)

/-- The same for the key projection. -/
theorem v5_real (i : S2x16x2048x64.Idx) : IsReal (val_main_v5 (F := Ideal) x0 w i) := by
  rw [val_main_v5_apply, val_main_v4_apply, val_main_v3_apply]
  exact IsReal.sum _ fun k _ => (r0 _).mul (rw' _)

/-- The same for the value projection. -/
theorem v8_real (i : S2x16x2048x64.Idx) : IsReal (val_main_v8 (F := Ideal) x0 w i) := by
  rw [val_main_v8_apply, val_main_v7_apply, val_main_v6_apply]
  exact IsReal.sum _ fun k _ => (r0 _).mul (rw' _)

end Reals

/-! ## The joined keys and values, position by position -/

section Tables
variable (x0 : (⟨S2x2048x1024, .f32⟩ : BufTy).Contents (Elt Ideal))
  (x1 x2 : (⟨S2x16x2048x64, .f32⟩ : BufTy).Contents (Elt Ideal))
  (x4 x5 : (⟨S1024x1024, .f32⟩ : BufTy).Contents (Elt Ideal))
  (b : Fin 2) (h : Fin 16)

/-- The cached keys of (b, h) followed by its new keys are the reference's joined keys of (b, h). -/
theorem keys_eq (k : Fin 4096) (d : Fin 64) :
    cat2 (fun k' => x1 (ix4 b h k' d)) (fun k' => val_main_v5 (F := Ideal) x0 x4 (ix4 b h k' d)) k
      = val_main_v9 (F := Ideal) x0 x1 x4 (ix4 b h k d) := by
  rcases lo_or_hi k with ⟨k', rfl⟩ | ⟨k', rfl⟩
  · rw [cat2_lo]
    exact (Cert.ConcatRead.concat_lo x1 (val_main_v5 (F := Ideal) x0 x4) _ b h k' d).symm
  · rw [cat2_hi]
    exact (Cert.ConcatRead.concat_hi x1 (val_main_v5 (F := Ideal) x0 x4) _ b h k' d).symm

/-- The cached values of (b, h) followed by its new values are the reference's joined values of (b, h). -/
theorem vals_eq (k : Fin 4096) (j : Fin 64) :
    cat2 (fun k' => x2 (ix4 b h k' j)) (fun k' => val_main_v8 (F := Ideal) x0 x5 (ix4 b h k' j)) k
      = val_main_v10 (F := Ideal) x0 x2 x5 (ix4 b h k j) := by
  rcases lo_or_hi k with ⟨k', rfl⟩ | ⟨k', rfl⟩
  · rw [cat2_lo]
    exact (Cert.ConcatRead.concat_lo x2 (val_main_v8 (F := Ideal) x0 x5) _ b h k' j).symm
  · rw [cat2_hi]
    exact (Cert.ConcatRead.concat_hi x2 (val_main_v8 (F := Ideal) x0 x5) _ b h k' j).symm

end Tables

/-! ## The stage -/

/-- The slab-by-slab attention over the flattened views of the reference's projections and of the caches, read
    back at [2, 16, 2048, 64], is the reference's attention stage, when every input entry is a real. -/
theorem ctx_eq (x0 : (⟨Cert.ReferenceIdeal.S2x2048x1024, .f32⟩ : BufTy).Contents (Elt Ideal))
    (x1 x2 : (⟨Cert.ReferenceIdeal.S2x16x2048x64, .f32⟩ : BufTy).Contents (Elt Ideal))
    (x3 x4 x5 : (⟨Cert.ReferenceIdeal.S1024x1024, .f32⟩ : BufTy).Contents (Elt Ideal))
    (h32 : (⟨4, ![2, 16, 2048, 64]⟩ : Shape).ShapeCasts ⟨3, ![32, 2048, 64]⟩)
    (h4 : (⟨3, ![32, 2048, 64]⟩ : Shape).ShapeCasts ⟨4, ![2, 16, 2048, 64]⟩)
    (r0 : ∀ i, IsReal (x0 i)) (r1 : ∀ i, IsReal (x1 i)) (r2 : ∀ i, IsReal (x2 i))
    (r3 : ∀ i, IsReal (x3 i)) (r4 : ∀ i, IsReal (x4 i)) (r5 : ∀ i, IsReal (x5 i)) :
    shapeCast ⟨4, ![2, 16, 2048, 64]⟩
        (Cert.Attn.G1 (shapeCast ⟨3, ![32, 2048, 64]⟩ (Read.val_main_v2 x0 x3) h32) (shapeCast ⟨3, ![32, 2048, 64]⟩ x1 h32)
          (shapeCast ⟨3, ![32, 2048, 64]⟩ x2 h32) (shapeCast ⟨3, ![32, 2048, 64]⟩ (Read.val_main_v5 x0 x4) h32)
          (shapeCast ⟨3, ![32, 2048, 64]⟩ (Read.val_main_v8 x0 x5) h32)) h4
      = Read.val_main_v26 x0 x1 x2 x3 x4 x5 := by
  funext i
  obtain ⟨b, h, s, j, rfl⟩ : ∃ (b : Fin 2) (h : Fin 16) (s : Fin 2048) (j : Fin 64), i = ix4 b h s j :=
    ⟨i 0, i 1, i 2, i 3, eq_ix4 i⟩
  refine (unflat_apply _ h4 b h s j).trans ?_
  rw [G1_apply, Cert.RefBridge.ref_ctx]
  simp only [flat_apply]
  have hK : (fun (k : Fin 4096) (d : Fin 64) =>
        cat2 (fun k' => x1 (ix4 b h k' d)) (fun k' => val_main_v5 (F := Ideal) x0 x4 (ix4 b h k' d)) k)
      = fun k d => val_main_v9 (F := Ideal) x0 x1 x4 (ix4 b h k d) :=
    funext fun k => funext fun d => keys_eq x0 x1 x4 b h k d
  have hV : (fun (k : Fin 4096) =>
        cat2 (fun k' => x2 (ix4 b h k' j)) (fun k' => val_main_v8 (F := Ideal) x0 x5 (ix4 b h k' j)) k)
      = fun k => val_main_v10 (F := Ideal) x0 x2 x5 (ix4 b h k j) :=
    funext fun k => vals_eq x0 x2 x5 b h k j
  rw [hK, hV]
  refine kAttn_eq_rAttn _ _ _ _ _ (fun d => v2_real x0 x3 r0 r3 _) (fun k d => ?_) (fun k => ?_)
    Cert.Consts.ofBits_eighth Cert.Consts.sqrt_sixtyfour
  · rw [← keys_eq]
    rcases lo_or_hi k with ⟨k', rfl⟩ | ⟨k', rfl⟩
    · rw [cat2_lo]; exact r1 _
    · rw [cat2_hi]; exact v5_real x0 x4 r0 r4 _
  · rw [← vals_eq]
    rcases lo_or_hi k with ⟨k', rfl⟩ | ⟨k', rfl⟩
    · rw [cat2_lo]; exact r2 _
    · rw [cat2_hi]; exact v8_real x0 x5 r0 r5 _

end Cert.CtxBridge

end
-- ==== Proof.ProjBridge.lean ====
/-
  A dense projection done on the flattened [4096, 1024] view of a [2, 2048, 1024] array is the contraction of the
  array's last axis with the weight's first: row a·2048 + b of the flattened view is row (a, b) of the array, and an
  entry of the product is the sum over the contracted coordinate of the products of the entries. Read back at shape
  [2, 2048, 1024] it is the reference's dot_general; read back at [2, 2048, 16, 64] (column h·64 + d as the pair
  (h, d)) it is that dot_general reshaped.
-/
import proofs.«124896_j33852932227543_2_alg».proof.Proof.Gen.ReferenceIdeal.Read
import proofs.«124896_j33852932227543_2_alg».proof.Proof.LibMatProd

open scoped BigOperators

noncomputable section

namespace Cert.ProjBridge

open Idealize.ShloMosaic Idealize.ShloMosaic.ValueIdx Cert.Lib.MatProd

/-- Row (a, b) of the [2, 2048, ·] array is row a·2048 + b of its flattened view. -/
def row (a : Fin 2) (b : Fin 2048) : Fin 4096 := ⟨a.val * 2048 + b.val, by have := a.isLt; have := b.isLt; omega⟩
/-- Column (h, d) of the [·, 16, 64] array is column h·64 + d of its flattened view. -/
def col (h : Fin 16) (d : Fin 64) : Fin 1024 := ⟨h.val * 64 + d.val, by have := h.isLt; have := d.isLt; omega⟩

/-- The flattened view at (a·2048 + b, k) is the array at (a, b, k): the two indices have the same row-major position. -/
theorem flat_apply (M : (⟨3, ![2, 2048, 1024]⟩ : Shape).Idx → EReal)
    (h1 : (⟨3, ![2, 2048, 1024]⟩ : Shape).ShapeCasts ⟨2, ![4096, 1024]⟩) (a : Fin 2) (b : Fin 2048) (k : Fin 1024) :
    shapeCast ⟨2, ![4096, 1024]⟩ M h1 (ix2 (row a b) k) = M (ix3 a b k) :=
  shapeCast_apply M h1 (ix2 (row a b) k) (ix3 a b k) (by
    rewrite [Shape.rowMajor_val_three, Shape.rowMajor_val_two]
    show (a.val * 2048 + b.val) * 1024 + k.val = (a.val * 2048 + b.val) * 1024 + k.val
    rfl)

/-- The product of the flattened view with the weight, at (a·2048 + b, c), is the reference's contraction at (a, b, c):
    both are the sum over k of M(a, b, k) · W(k, c). -/
theorem matProd_flat_apply (M : (⟨3, ![2, 2048, 1024]⟩ : Shape).Idx → EReal) (W : (⟨2, ![1024, 1024]⟩ : Shape).Idx → EReal)
    (h1 : (⟨3, ![2, 2048, 1024]⟩ : Shape).ShapeCasts ⟨2, ![4096, 1024]⟩) (a : Fin 2) (b : Fin 2048) (c : Fin 1024) :
    matProd (shapeCast ⟨2, ![4096, 1024]⟩ M h1) W (ix2 (row a b) c)
      = Cert.ReferenceIdeal.Read.val_main_v0 (F := Ideal) M W (ix3 a b c) := by
  rw [Cert.ReferenceIdeal.Read.val_main_v0_apply, matProd_apply]
  refine Finset.sum_congr rfl fun k _ => ?_
  have el : Cert.ReferenceIdeal.Read.lidx_main_v0 (ix3 a b c) k = ix3 a b k :=
    funext fun d => Fin.ext (by match d with | ⟨0, _⟩ => rfl | ⟨1, _⟩ => rfl | ⟨2, _⟩ => rfl)
  have er : Cert.ReferenceIdeal.Read.ridx_main_v0 (ix3 a b c) k = ix2 k c :=
    funext fun d => Fin.ext (by match d with | ⟨0, _⟩ => rfl | ⟨1, _⟩ => rfl)
  rw [flat_apply, el, er]

/-- Read back at [2, 2048, 1024], the product on the flattened view is the reference's dot_general. -/
theorem outproj_eq (M : (⟨3, ![2, 2048, 1024]⟩ : Shape).Idx → EReal) (W : (⟨2, ![1024, 1024]⟩ : Shape).Idx → EReal)
    (h1 : (⟨3, ![2, 2048, 1024]⟩ : Shape).ShapeCasts ⟨2, ![4096, 1024]⟩)
    (h2 : (⟨2, ![4096, 1024]⟩ : Shape).ShapeCasts ⟨3, ![2, 2048, 1024]⟩) :
    shapeCast ⟨3, ![2, 2048, 1024]⟩ (matProd (shapeCast ⟨2, ![4096, 1024]⟩ M h1) W) h2
      = Cert.ReferenceIdeal.Read.val_main_v0 (F := Ideal) M W := by
  funext i
  obtain ⟨a, b, c, rfl⟩ : ∃ (a : Fin 2) (b : Fin 2048) (c : Fin 1024), i = ix3 a b c := ⟨i 0, i 1, i 2, eq_ix3 i⟩
  refine (shapeCast_apply _ h2 (ix3 a b c) (ix2 (row a b) c) (by
    rewrite [Shape.rowMajor_val_three, Shape.rowMajor_val_two]
    show (a.val * 2048 + b.val) * 1024 + c.val = (a.val * 2048 + b.val) * 1024 + c.val
    rfl)).trans ?_
  exact matProd_flat_apply M W h1 a b c

/-- The reference's reshape index at (a, b, h, d) is (a, b, h·64 + d). -/
theorem idx_main_v1_ix4 (a : Fin 2) (b : Fin 2048) (h : Fin 16) (d : Fin 64) :
    Cert.ReferenceIdeal.Read.idx_main_v1 (ix4 a b h d) = ix3 a b (col h d) := by
  have ha := a.isLt; have hb := b.isLt; have hh := h.isLt; have hd := d.isLt
  funext e
  apply Fin.ext
  match e with
  | ⟨0, _⟩ =>
    show (((a.val * 2048 + b.val) * 16 + h.val) * 64 + d.val) / 2097152 = a.val
    omega
  | ⟨1, _⟩ =>
    show (((a.val * 2048 + b.val) * 16 + h.val) * 64 + d.val) / 1024 % 2048 = b.val
    omega
  | ⟨2, _⟩ =>
    show (((a.val * 2048 + b.val) * 16 + h.val) * 64 + d.val) % 1024 = h.val * 64 + d.val
    omega

/-- Read back at [2, 2048, 16, 64], the product on the flattened view is the reference's dot_general reshaped. -/
theorem headproj_eq (M : (⟨3, ![2, 2048, 1024]⟩ : Shape).Idx → EReal) (W : (⟨2, ![1024, 1024]⟩ : Shape).Idx → EReal)
    (h1 : (⟨3, ![2, 2048, 1024]⟩ : Shape).ShapeCasts ⟨2, ![4096, 1024]⟩)
    (h3 : (⟨2, ![4096, 1024]⟩ : Shape).ShapeCasts ⟨4, ![2, 2048, 16, 64]⟩) :
    shapeCast ⟨4, ![2, 2048, 16, 64]⟩ (matProd (shapeCast ⟨2, ![4096, 1024]⟩ M h1) W) h3
      = Cert.ReferenceIdeal.Read.val_main_v1 (F := Ideal) M W := by
  funext i
  obtain ⟨a, b, h, d, rfl⟩ : ∃ (a : Fin 2) (b : Fin 2048) (h : Fin 16) (d : Fin 64), i = ix4 a b h d :=
    ⟨i 0, i 1, i 2, i 3, eq_ix4 i⟩
  have ha := a.isLt; have hb := b.isLt; have hh := h.isLt; have hd := d.isLt
  refine (shapeCast_apply _ h3 (ix4 a b h d) (ix2 (row a b) (col h d)) (by
    rewrite [Shape.rowMajor_val_four, Shape.rowMajor_val_two]
    show (a.val * 2048 + b.val) * 1024 + (h.val * 64 + d.val) = ((a.val * 2048 + b.val) * 16 + h.val) * 64 + d.val
    omega)).trans ?_
  rw [Cert.ReferenceIdeal.Read.val_main_v1_apply, idx_main_v1_ix4]
  exact matProd_flat_apply M W h1 a b (col h d)

end Cert.ProjBridge

end
-- ==== Proof.FinalBridge.lean ====
/-
  The kernel's results, as pure functions of its argument arrays, against the reference's stages. A projection done
  on the flattened input and rearranged to [batch, head, position, column] is the reference's contraction reshaped and
  transposed; hence the cached keys and values followed by the new ones are the reference's joins; and, when every
  entry of the input, the caches and the three projection weights is a real, the attention output merged back to
  rows and multiplied by the last weight is the reference's result. The last weight needs no finiteness: a product
  on the flattened view is the reference's contraction entry by entry.
-/
import proofs.«124896_j33852932227543_2_alg».proof.Proof.KernelSpec
import proofs.«124896_j33852932227543_2_alg».proof.Proof.CtxBridge
import proofs.«124896_j33852932227543_2_alg».proof.Proof.ProjBridge
import proofs.«124896_j33852932227543_2_alg».proof.Proof.LibMatProd
import proofs.«124896_j33852932227543_2_alg».proof.Proof.LibIdealSums
import proofs.«124896_j33852932227543_2_alg».proof.Proof.Gen.ReferenceIdeal.Read

noncomputable section

namespace Cert.FinalBridge

open Idealize.ShloMosaic Idealize.ShloMosaic.ValueIdx Cert.Lib.IdealSums Cert.Lib.MatProd
open Cert.KernelIdeal Cert.KernelIdeal.Gen

/-! ## The three projections rearranged to heads -/

/-- The key projection's stages repeat the query projection's word for word over another weight. -/
theorem v5_eq_v2 (x0 : S2x2048x1024.Idx → EReal) (w : S1024x1024.Idx → EReal) :
    Cert.ReferenceIdeal.Read.val_main_v5 (F := Ideal) x0 w = Cert.ReferenceIdeal.Read.val_main_v2 (F := Ideal) x0 w := rfl

/-- So do the value projection's. -/
theorem v8_eq_v2 (x0 : S2x2048x1024.Idx → EReal) (w : S1024x1024.Idx → EReal) :
    Cert.ReferenceIdeal.Read.val_main_v8 (F := Ideal) x0 w = Cert.ReferenceIdeal.Read.val_main_v2 (F := Ideal) x0 w := rfl

/-- The product on the flattened input, its rows and columns rearranged to [batch, head, position, column], is the
    reference's contraction reshaped and transposed. -/
theorem heads_proj (x0 : S2x2048x1024.Idx → EReal) (w : S1024x1024.Idx → EReal) :
    KV.heads (KV.proj x0 w) = Cert.ReferenceIdeal.Read.val_main_v2 (F := Ideal) x0 w := by
  unfold KV.heads KV.proj
  exact congrArg
    (fun y => transpose S2x16x2048x64 [0, 2, 1, 3] y transposes_S2x2048x16x64_S2x16x2048x64_0_2_1_3)
    (Cert.ProjBridge.headproj_eq x0 w shapeCasts_S2x2048x1024_S4096x1024 shapeCasts_S4096x1024_S2x2048x16x64)

/-! ## The joined keys and values -/

/-- The cached keys followed by the new keys are the reference's joined keys. -/
theorem keys_eq (x0 : S2x2048x1024.Idx → EReal) (x1 : S2x16x2048x64.Idx → EReal) (x4 : S1024x1024.Idx → EReal) :
    KV.joined x1 (KV.heads (KV.proj x0 x4)) = Cert.ReferenceIdeal.Read.val_main_v9 (F := Ideal) x0 x1 x4 := by
  refine (congrArg (KV.joined x1) ((heads_proj x0 x4).trans (v5_eq_v2 x0 x4).symm)).trans ?_
  rfl

/-- The cached values followed by the new values are the reference's joined values. -/
theorem vals_eq (x0 : S2x2048x1024.Idx → EReal) (x2 : S2x16x2048x64.Idx → EReal) (x5 : S1024x1024.Idx → EReal) :
    KV.joined x2 (KV.heads (KV.proj x0 x5)) = Cert.ReferenceIdeal.Read.val_main_v10 (F := Ideal) x0 x2 x5 := by
  refine (congrArg (KV.joined x2) ((heads_proj x0 x5).trans (v8_eq_v2 x0 x5).symm)).trans ?_
  rfl

/-! ## The output -/

/-- The slab-by-slab attention read back at [2, 16, 2048, 64] is the reference's attention stage, on real inputs. -/
theorem ctx_unflat (x0 : S2x2048x1024.Idx → EReal) (x1 x2 : S2x16x2048x64.Idx → EReal)
    (x3 x4 x5 : S1024x1024.Idx → EReal)
    (r0 : ∀ i, IsReal (x0 i)) (r1 : ∀ i, IsReal (x1 i)) (r2 : ∀ i, IsReal (x2 i))
    (r3 : ∀ i, IsReal (x3 i)) (r4 : ∀ i, IsReal (x4 i)) (r5 : ∀ i, IsReal (x5 i)) :
    shapeCast S2x16x2048x64 (KV.ctx x0 x1 x2 x3 x4 x5) shapeCasts_S32x2048x64_S2x16x2048x64
      = Cert.ReferenceIdeal.Read.val_main_v26 (F := Ideal) x0 x1 x2 x3 x4 x5 := by
  unfold KV.ctx KV.slabs
  rw [heads_proj, heads_proj, heads_proj]
  exact Cert.CtxBridge.ctx_eq x0 x1 x2 x3 x4 x5 shapeCasts_S2x16x2048x64_S32x2048x64
    shapeCasts_S32x2048x64_S2x16x2048x64 r0 r1 r2 r3 r4 r5

/-- The merged attention output is the flattened view of the reference's attention stage transposed and reshaped. -/
theorem merged_ctx (x0 : S2x2048x1024.Idx → EReal) (x1 x2 : S2x16x2048x64.Idx → EReal)
    (x3 x4 x5 : S1024x1024.Idx → EReal)
    (r0 : ∀ i, IsReal (x0 i)) (r1 : ∀ i, IsReal (x1 i)) (r2 : ∀ i, IsReal (x2 i))
    (r3 : ∀ i, IsReal (x3 i)) (r4 : ∀ i, IsReal (x4 i)) (r5 : ∀ i, IsReal (x5 i)) :
    KV.merged (KV.ctx x0 x1 x2 x3 x4 x5)
      = shapeCast S4096x1024 (Cert.ReferenceIdeal.Read.val_main_v28 (F := Ideal) x0 x1 x2 x3 x4 x5)
          shapeCasts_S2x2048x1024_S4096x1024 := by
  unfold KV.merged
  rw [ctx_unflat x0 x1 x2 x3 x4 x5 r0 r1 r2 r3 r4 r5]
  rfl

/-- The kernel's first result is the reference's result, on real inputs; the last weight may be anything. -/
theorem out_eq (x0 : S2x2048x1024.Idx → EReal) (x1 x2 : S2x16x2048x64.Idx → EReal)
    (x3 x4 x5 x6 : S1024x1024.Idx → EReal)
    (r0 : ∀ i, IsReal (x0 i)) (r1 : ∀ i, IsReal (x1 i)) (r2 : ∀ i, IsReal (x2 i))
    (r3 : ∀ i, IsReal (x3 i)) (r4 : ∀ i, IsReal (x4 i)) (r5 : ∀ i, IsReal (x5 i)) :
    KV.out x0 x1 x2 x3 x4 x5 x6 = Cert.ReferenceIdeal.Read.val_main_v29 (F := Ideal) x0 x1 x2 x3 x4 x5 x6 := by
  unfold KV.out
  rw [merged_ctx x0 x1 x2 x3 x4 x5 r0 r1 r2 r3 r4 r5]
  exact Cert.ProjBridge.outproj_eq (Cert.ReferenceIdeal.Read.val_main_v28 (F := Ideal) x0 x1 x2 x3 x4 x5) x6
    shapeCasts_S2x2048x1024_S4096x1024 shapeCasts_S4096x1024_S2x2048x1024

end Cert.FinalBridge

end
-- ==== Proof.Finite.lean ====
/-
  From the input check to the entries: the check takes the absolute value of every entry of the seven argument arrays,
  compares it with +∞ by the ordered less-than, takes the conjunction over each array and the conjunction of the seven
  results. When the result is 1 every comparison is 1, so every entry has absolute value below +∞: it is a real.
-/
import proofs.«124896_j33852932227543_2_alg».proof.Pre_finite_inputs
import proofs.«124896_j33852932227543_2_alg».proof.Proof.LibIdealSums
import Idealize.ShloMosaic.Lib.ReduceAll

namespace Cert.Finite

open Idealize.ShloMosaic Cert.Lib.IdealSums Cert.Pre_finite_inputs

/-- The shape of a scalar has one index. -/
instance subsingleton_scalar_idx : Subsingleton S_.Idx := ⟨fun a b => funext fun d => d.elim0⟩

/-- One array's check: when the conjunction over all positions of "|x| < +∞" is 1, every entry of x is a real. -/
theorem isReal_of_all {s : Shape} {axes : List (Fin s.rank)} (x : s.Idx → EReal)
    (hb : S_.BroadcastsInDim s (![] : Fin 0 → Fin s.rank)) (hr : s.ReducesTo axes S_) (hu : 0 < S_.numel) (j : S_.Idx)
    (e : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu j = 1#1) (i : s.Idx) : IsReal (x i) :=
  isReal_of_cmpf_abs (x i) (Host.reduce_andi_all _ _ hr hu j e i)

theorem isReal_of_check [Cert.Pre_finite_inputs.Facts]
    (x0 : (⟨3, ![2, 2048, 1024]⟩ : Shape).Idx → EReal) (x1 x2 : (⟨4, ![2, 16, 2048, 64]⟩ : Shape).Idx → EReal)
    (x3 x4 x5 x6 : (⟨2, ![1024, 1024]⟩ : Shape).Idx → EReal)
    (h : Cert.Pre_finite_inputs.fn (F := Ideal) x0 x1 x2 x3 x4 x5 x6 = (fun _ => 1#1)) :
    (∀ i, Cert.Lib.IdealSums.IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) := by
  have e := congrFun h ValueIdx.ix0
  dsimp only [fn, fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ e0, isReal_of_all x1 _ _ _ _ e1, isReal_of_all x2 _ _ _ _ e2,
    isReal_of_all x3 _ _ _ _ e3, isReal_of_all x4 _ _ _ _ e4, isReal_of_all x5 _ _ _ _ e5,
    isReal_of_all x6 _ _ _ _ e6⟩

end Cert.Finite
-- ==== Proof.lean ====
/-
  The certificate's claim for the multi-head attention program with a key/value cache, against its reference.

  The program flattens the input to 4096 rows, multiplies it by three projection weights in one grid region, splits
  the heads off, joins the new keys and values behind the cached ones (the second and third results), computes
  dot-product attention slab by slab in a second grid region — the query scaled by one eighth before the dot
  products, the row maximum, the normalising sum and the weighted values each taken over the cached half and the new
  half separately and combined, one division at the end — merges the heads back and multiplies by the last weight in a
  third grid region (the first result). The reference contracts the input with each weight directly, joins the keys
  and the values, divides every dot product by the square root of sixty-four, applies a softmax over the whole joined
  row and contracts with the last weight.

  The three frames: the two kernel programs' are the generated ones; the reference's is its generated run with the
  results dropped. The idealization rewrote nothing, so its conjunct is trivial. The value claim: the kernel
  program's run names its three results as the last boundary's contents; walking back through the segments these are
  pure functions of the seven arguments; the joined keys and values are the reference's by re-indexing alone; the
  first result is the reference's because, every input entry being a real number under the precondition, scaling
  the query by one eighth equals dividing the dot product by eight, the maximum and the sums over a row split over
  its two halves, and dividing the weighted sum once equals weighting by the normalised weights.
-/
import proofs.«124896_j33852932227543_2_alg».proof.Defs
import proofs.«124896_j33852932227543_2_alg».proof.Proof.Gen.Kernel
import proofs.«124896_j33852932227543_2_alg».proof.Proof.Gen.Kernel.Skeleton
import proofs.«124896_j33852932227543_2_alg».proof.Proof.Gen.Kernel.Launch
import proofs.«124896_j33852932227543_2_alg».proof.Proof.Gen.Kernel.Points
import proofs.«124896_j33852932227543_2_alg».proof.Proof.Gen.Kernel.Frame
import proofs.«124896_j33852932227543_2_alg».proof.Proof.Gen.KernelIdeal
import proofs.«124896_j33852932227543_2_alg».proof.Proof.Gen.KernelIdeal.Skeleton
import proofs.«124896_j33852932227543_2_alg».proof.Proof.Gen.KernelIdeal.Launch
import proofs.«124896_j33852932227543_2_alg».proof.Proof.Gen.KernelIdeal.Points
import proofs.«124896_j33852932227543_2_alg».proof.Proof.Gen.KernelIdeal.Frame
import proofs.«124896_j33852932227543_2_alg».proof.Proof.Gen.ReferenceIdeal
import proofs.«124896_j33852932227543_2_alg».proof.Proof.Gen.Pre_finite_inputs
import proofs.«124896_j33852932227543_2_alg».proof.Proof.Gen.ReferenceIdeal.Run
import proofs.«124896_j33852932227543_2_alg».proof.Proof.Gen.ReferenceIdeal.Read
import proofs.«124896_j33852932227543_2_alg».proof.Proof.KernelRun
import proofs.«124896_j33852932227543_2_alg».proof.Proof.KernelValue
import proofs.«124896_j33852932227543_2_alg».proof.Proof.Region1Pay
import proofs.«124896_j33852932227543_2_alg».proof.Proof.FinalBridge
import proofs.«124896_j33852932227543_2_alg».proof.Proof.Finite
import Idealize.ShloMosaic.Adequacy
import Idealize.ShloMosaic.Init

set_option maxRecDepth 16384

noncomputable section

namespace Cert.Proof

open Idealize.ShloMosaic Idealize.SL.Sem Cert.Kernel

/-- What the attention body stores at one position of its block. -/
theorem payload : Cert.KernelIdeal.R1.PayloadSpec :=
  fun x0 x1 x2 x3 x4 p j => Cert.KernelIdeal.R1Pay.attn_payload x0 x1 x2 x3 x4 p j

/-- From memories agreeing on the seven arguments, all of whose entries are reals, the two idealized programs end
    with the same three results. -/
theorem algebraic : Cert.algebraic_KernelIdeal_ReferenceIdeal := by
  intro m ρ m' ρ' hpre hagree
  refine ⟨fun c => Cert.KernelIdeal.KV.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.KV.joined (m ((c.tc : Thread Cert.KernelIdeal.nD Cert.KernelIdeal.τ).loc Cert.KernelIdeal.main_arg1)) (Cert.KernelIdeal.KV.heads (Cert.KernelIdeal.KV.proj (m ((c.tc : Thread Cert.KernelIdeal.nD Cert.KernelIdeal.τ).loc Cert.KernelIdeal.main_arg0)) (m ((c.tc : Thread Cert.KernelIdeal.nD Cert.KernelIdeal.τ).loc Cert.KernelIdeal.main_arg4)))),
    fun c => Cert.KernelIdeal.KV.joined (m ((c.tc : Thread Cert.KernelIdeal.nD Cert.KernelIdeal.τ).loc Cert.KernelIdeal.main_arg2)) (Cert.KernelIdeal.KV.heads (Cert.KernelIdeal.KV.proj (m ((c.tc : Thread Cert.KernelIdeal.nD Cert.KernelIdeal.τ).loc Cert.KernelIdeal.main_arg0)) (m ((c.tc : Thread Cert.KernelIdeal.nD Cert.KernelIdeal.τ).loc Cert.KernelIdeal.main_arg5)))), ?_, ?_⟩
  · exact (θ_run _ _ _).mono (fun r h c => ⟨(h c).1.trans (Cert.KernelIdeal.KV.res_out m ρ c payload),
      (h c).2.1.trans (Cert.KernelIdeal.KV.res_keys m ρ c), (h c).2.2.1.trans (Cert.KernelIdeal.KV.res_vals m ρ c), (h c).2.2.2⟩)
      (Cert.KernelIdeal.RunW.run_results m ρ)
  · refine (θ_run Cert.ReferenceIdeal.defs _ _).mono (fun r h c => ?_) (Cert.ReferenceIdeal.Value.run (F := Ideal) m' ρ')
    obtain ⟨a0, a1, a2, a3, a4, a5, a6⟩ := hagree c
    obtain ⟨r0, r1, r2, r3, r4, r5, r6⟩ := Cert.Finite.isReal_of_check _ _ _ _ _ _ _ (hpre c)
    refine ⟨?_, ?_, ?_, (h c).2.2.2⟩
    · rw [(h c).1, Cert.ReferenceIdeal.Read.val_main_v29_eq, a0, a1, a2, a3, a4, a5, a6]
      exact (Cert.FinalBridge.out_eq _ _ _ _ _ _ _ r0 r1 r2 r3 r4 r5).symm
    · rw [(h c).2.1, Cert.ReferenceIdeal.Read.val_main_v9_eq, a0, a1, a4]
      exact (Cert.FinalBridge.keys_eq _ _ _).symm
    · rw [(h c).2.2.1, Cert.ReferenceIdeal.Read.val_main_v10_eq, a0, a2, a5]
      exact (Cert.FinalBridge.vals_eq _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  algebraic⟩

end Cert.Proof

end
